-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x15 : Shape := ⟨2, ![256, 15]⟩
abbrev S15 : Shape := ⟨1, ![15]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x15 : S_.BroadcastsInDim S256x15 (![] : Fin 0 → Fin S256x15.rank)
  reducesTo_S256x15_S_d0_1 : S256x15.ReducesTo [0, 1] S_
  bcast_S_S15 : S_.BroadcastsInDim S15 (![] : Fin 0 → Fin S15.rank)
  reducesTo_S15_S_d0 : S15.ReducesTo [0] S_

variable [Facts]

def fn_part3 {F : FTy → Type} [FloatOps F] (main_arg12 : FVec F S15 .f32) (main_v48 : IVec S_ 1) (main_v49 : FVec F S256x15 .f32) (main_v50 : FVec F S256x15 .f32) : IVec S_ 1 :=
  let main_v51 : IVec S256x15 1 := cmpf .olt main_v49 main_v50
  let main_c_19 : IVec S_ 1 := constantI S_ 1 1#1
  let main_v52 : IVec S_ 1 := (fun x v => Host.reduce IntOp.andi x v reducesTo_S256x15_S_d0_1 h_S_) main_v51 main_c_19
  let main_v53 : IVec S_ 1 := andi main_v48 main_v52
  let main_v54 : FVec F S15 .f32 := Host.absf main_arg12
  let main_cst_20 : FVec F S_ .f32 := constant S_ .f32 0x7F800000#32
  let main_v55 : FVec F S15 .f32 := broadcastInDim S15 ![] bcast_S_S15 main_cst_20
  let main_v56 : IVec S15 1 := cmpf .olt main_v54 main_v55
  let main_c_21 : IVec S_ 1 := constantI S_ 1 1#1
  let main_v57 : IVec S_ 1 := (fun x v => Host.reduce IntOp.andi x v reducesTo_S15_S_d0 h_S_) main_v56 main_c_21
  let main_v58 : IVec S_ 1 := andi main_v53 main_v57
  main_v58

def fn_part2 {F : FTy → Type} [FloatOps F] (main_arg8 : FVec F S256x256 .f32) (main_arg9 : FVec F S256 .f32) (main_arg10 : FVec F S256x256 .f32) (main_arg11 : FVec F S256x15 .f32) (main_arg12 : FVec F S15 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x15 .f32 := Host.absf main_arg11
  let main_cst_18 : FVec F S_ .f32 := constant S_ .f32 0x7F800000#32
  let main_v50 : FVec F S256x15 .f32 := broadcastInDim S256x15 ![] bcast_S_S256x15 main_cst_18
  fn_part3 (F := F) main_arg12 main_v48 main_v49 main_v50

def fn_part1 {F : FTy → Type} [FloatOps F] (main_arg5 : FVec F S256x256 .f32) (main_arg6 : FVec F S256 .f32) (main_arg7 : FVec F S256x256 .f32) (main_arg8 : FVec F S256x256 .f32) (main_arg9 : FVec F S256 .f32) (main_arg10 : FVec F S256x256 .f32) (main_arg11 : FVec F S256x15 .f32) (main_arg12 : FVec F S15 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x256 .f32) (main_arg9 : FVec F S256 .f32) (main_arg10 : FVec F S256x256 .f32) (main_arg11 : FVec F S256x15 .f32) (main_arg12 : FVec F S15 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x15 : Shape := ⟨2, ![256, 15]⟩
abbrev S15 : Shape := ⟨1, ![15]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x15 : Shape := ⟨2, ![1, 15]⟩
abbrev S50000x15 : Shape := ⟨2, ![50000, 15]⟩
abbrev S2000x15 : Shape := ⟨2, ![2000, 15]⟩

abbrev nBuf : Space → Nat
  | .hbm => 83
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256x15, .f32⟩
  | .hbm, ⟨12, _⟩ => ⟨S15, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x256, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .f32⟩
  | .hbm, ⟨73, _⟩ => ⟨S_, .f32⟩
  | .hbm, ⟨74, _⟩ => ⟨S50000x256, .f32⟩
  | .hbm, ⟨75, _⟩ => ⟨S800000x1, .i32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S1x15, .f32⟩
  | .hbm, ⟨82, _⟩ => ⟨S50000x15, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x15, .f32⟩
  | .local _ .vmem, ⟨30, _⟩ => ⟨S1x15, .f32⟩
  | .local _ .vmem, ⟨31, _⟩ => ⟨S2000x15, .f32⟩
  | .local _ .vmem, ⟨32, _⟩ => ⟨S2000x15, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x15 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x15 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x15 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S15_S1x15 : S15.ShapeCasts S1x15
  inb_S256x15_S256x15_0_0 : ∀ a, (![0, 0] : Fin 2 → Nat) a + S256x15.size a ≤ S256x15.size a
  h_S256x15 : 0 < S256x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S2000x15 : S1x15.Broadcasts S2000x15
  inb_S2000x15_S2000x15_0_0 : ∀ a, (![0, 0] : Fin 2 → Nat) a + S2000x15.size a ≤ S2000x15.size a
  h_S2000x15 : 0 < S2000x15.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x15_S2000x15_1_0_0_1_n_n_wf : DotDims.WF S2000x256 S256x15 S2000x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x15.size a ≤ S256x15.size a
  hwx3_1 : ∀ i : grid3.Coords, EltTy.bits .f32 = 32 ∨ (Rect.block (s := S256x15) S256x15.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x15.size a ≤ S1x15.size a
  hwx3_2 : ∀ i : grid3.Coords, EltTy.bits .f32 = 32 ∨ (Rect.block (s := S1x15) S1x15.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x15.size a ≤ S50000x15.size a
  hwx3_3 : ∀ i : grid3.Coords, EltTy.bits .f32 = 32 ∨ (Rect.block (s := S50000x15) S2000x15.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x15_S2000x15_1_0_0_1_n_n : DotDims S2000x256 S256x15 S2000x15 where
  lhsContracting := [1]
  rhsContracting := [0]
  lhsNonContracting := [0]
  rhsNonContracting := [1]
  lhsBatch := []
  rhsBatch := []
  wf := dot_S2000x256_S256x15_S2000x15_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S256x15.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x15.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S2000x15.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x15 : Shape := ⟨2, ![256, 15]⟩
abbrev S15 : Shape := ⟨1, ![15]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x15 : Shape := ⟨2, ![50000, 15]⟩
abbrev S1x15 : Shape := ⟨2, ![1, 15]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256x15, .f32⟩
  | .hbm, ⟨12, _⟩ => ⟨S15, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S1x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S50000x256, .f32⟩
  | .hbm, ⟨84, _⟩ => ⟨S50000x256, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x256, .f32⟩
  | .hbm, ⟨94, _⟩ => ⟨S_, .f32⟩
  | .hbm, ⟨95, _⟩ => ⟨S50000x256, .f32⟩
  | .hbm, ⟨96, _⟩ => ⟨S800000x1, .i32⟩
  | .hbm, ⟨97, _⟩ => ⟨S50000x256, .f32⟩
  | .hbm, ⟨98, _⟩ => ⟨S_, .f32⟩
  | .hbm, ⟨99, _⟩ => ⟨S800000, .f32⟩
  | .hbm, ⟨100, _⟩ => ⟨S_, .f32⟩
  | .hbm, ⟨101, _⟩ => ⟨S50000, .f32⟩
  | .hbm, ⟨102, _⟩ => ⟨S800000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x256, .f32⟩
  | .hbm, ⟨109, _⟩ => ⟨S50000x256, .f32⟩
  | .hbm, ⟨110, _⟩ => ⟨S50000x256, .f32⟩
  | .hbm, ⟨111, _⟩ => ⟨S1x256, .f32⟩
  | .hbm, ⟨112, _⟩ => ⟨S50000x256, .f32⟩
  | .hbm, ⟨113, _⟩ => ⟨S50000x256, .f32⟩
  | .hbm, ⟨114, _⟩ => ⟨S50000x256, .f32⟩
  | .hbm, ⟨115, _⟩ => ⟨S50000x256, .f32⟩
  | .hbm, ⟨116, _⟩ => ⟨S_, .f32⟩
  | .hbm, ⟨117, _⟩ => ⟨S50000x256, .f32⟩
  | .hbm, ⟨118, _⟩ => ⟨S50000x256, .f32⟩
  | .hbm, ⟨119, _⟩ => ⟨S50000x15, .f32⟩
  | .hbm, ⟨120, _⟩ => ⟨S1x15, .f32⟩
  | .hbm, ⟨121, _⟩ => ⟨S50000x15, .f32⟩
  | .hbm, ⟨122, _⟩ => ⟨S50000x15, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S15_S1x15_1 : S15.BroadcastsInDim S1x15 (![1] : Fin 1 → Fin S1x15.rank)
  bcast_S1x15_S50000x15_0_1 : S1x15.BroadcastsInDim S50000x15 (![0, 1] : Fin 2 → Fin S50000x15.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x15_S50000x15_1_0_0_1_n_n_wf : DotDims.WF S50000x256 S256x15 S50000x15 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x15_S50000x15_1_0_0_1_n_n : DotDims S50000x256 S256x15 S50000x15 where
  lhsContracting := [1]
  rhsContracting := [0]
  lhsNonContracting := [0]
  rhsNonContracting := [1]
  lhsBatch := []
  rhsBatch := []
  wf := dot_S50000x256_S256x15_S50000x15_1_0_0_1_n_n_wf

class Facts : Prop extends Facts₀ where

variable [Facts]
-- ==== Proof.RefModules.lean ====
/- The reference program's run and its read-at-an-index lemmas, gathered under one name for the modules that
   speak about the reference. -/
import proofs.«149804_j68436008895103_1_alg».proof.Proof.Gen.ReferenceIdeal.Run
import proofs.«149804_j68436008895103_1_alg».proof.Proof.Gen.ReferenceIdeal.Read
-- ==== Proof.KernelRun.lean ====
/- The tiled program's run with its result kept.

   The program is four tiled regions between stretches of host operations.  Its run leaves every unscoped buffer
   of the device at the contents obtained by folding the segments over the launch memory: a host stretch applies
   its operations, a region replaces its arrays by what its write-backs leave.  Stated here is that every weakly
   fair execution terminates without a fault with the result buffer at that fold's value and the thirteen
   argument arrays as launched; what the fold's value IS, index by index, is the business of the other modules. -/
import proofs.«149804_j68436008895103_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting,
    with the result buffer at the value the segments' fold gives it and the argument arrays as launched. -/
theorem run : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.KRun

end
-- ==== Proof.Spec.lean ====
/- What one fused layer of the network leaves at an index, as plain sums on the extended reals.

   A node's new feature row is  max((M·Wl + X·Wr) + b, 0),  where X holds the nodes' own feature rows, M the
   mean of each node's in-neighbours' rows, Wl and Wr are the two weight matrices and b is the bias row; the
   last layer is  X·Wo + b  with no maximum.  Entry (p, q) of a matrix product A·B is  ∑ k, A(p,k) * B(k,q).
   The bias is carried as a matrix with a single row, which is how the tiled program holds it.  These two
   functions are the yardstick: the tiled program's result arrays are shown equal to them block by block, and
   the plain program's operations are shown equal to them index by index. -/
import Idealize.ShloMosaic.PureOps.Ideal
import Idealize.ShloMosaic.Lib.ValueIdx

noncomputable section

namespace Cert.SageNet

open Idealize.ShloMosaic Idealize.ShloMosaic.ValueIdx

/-- Entry (p, q) of  max((M·Wl + X·Wr) + b, 0). -/
def fusedK {n ci h : Nat} (M X : (⟨2, ![n, ci]⟩ : Shape).Idx → EReal) (Wl : (⟨2, ![ci, h]⟩ : Shape).Idx → EReal)
    (b : (⟨2, ![1, h]⟩ : Shape).Idx → EReal) (Wr : (⟨2, ![ci, h]⟩ : Shape).Idx → EReal) :
    (⟨2, ![n, h]⟩ : Shape).Idx → EReal :=
  fun i => max (((∑ k : Fin ci, M (ix2 (i 0) k) * Wl (ix2 k (i 1))) + ∑ k : Fin ci, X (ix2 (i 0) k) * Wr (ix2 k (i 1)))
    + b (ix2 (0 : Fin 1) (i 1))) 0

/-- Entry (p, q) of  X·Wo + b. -/
def finalK {n ci h : Nat} (X : (⟨2, ![n, ci]⟩ : Shape).Idx → EReal) (Wo : (⟨2, ![ci, h]⟩ : Shape).Idx → EReal)
    (b : (⟨2, ![1, h]⟩ : Shape).Idx → EReal) : (⟨2, ![n, h]⟩ : Shape).Idx → EReal :=
  fun i => (∑ k : Fin ci, X (ix2 (i 0) k) * Wo (ix2 k (i 1))) + b (ix2 (0 : Fin 1) (i 1))

theorem fusedK_apply {n ci h : Nat} (M X : (⟨2, ![n, ci]⟩ : Shape).Idx → EReal) (Wl : (⟨2, ![ci, h]⟩ : Shape).Idx → EReal)
    (b : (⟨2, ![1, h]⟩ : Shape).Idx → EReal) (Wr : (⟨2, ![ci, h]⟩ : Shape).Idx → EReal) (p : Fin n) (q : Fin h) :
    fusedK M X Wl b Wr (ix2 p q) =
      max (((∑ k : Fin ci, M (ix2 p k) * Wl (ix2 k q)) + ∑ k : Fin ci, X (ix2 p k) * Wr (ix2 k q)) + b (ix2 (0 : Fin 1) q)) 0 := rfl

theorem finalK_apply {n ci h : Nat} (X : (⟨2, ![n, ci]⟩ : Shape).Idx → EReal) (Wo : (⟨2, ![ci, h]⟩ : Shape).Idx → EReal)
    (b : (⟨2, ![1, h]⟩ : Shape).Idx → EReal) (p : Fin n) (q : Fin h) :
    finalK X Wo b (ix2 p q) = (∑ k : Fin ci, X (ix2 p k) * Wo (ix2 k q)) + b (ix2 (0 : Fin 1) q) := rfl

end Cert.SageNet

end
-- ==== Proof.KHostDefs.lean ====
/- The tiled program's host-side operations between its four tiled regions, named as functions of the arrays they read.

   From the edge list (row 0: source node of each edge, row 1: destination node) the program takes the two rows,
   wraps a negative source index by the node count, and counts each node's incoming edges by adding a one per edge
   into a zero vector at the edge's destination; `invCol` is one over that count, the count being raised to at
   least one first.  For a feature matrix `h`, `sumRows` gathers the source node's row for every edge and adds it
   into a zero matrix at the edge's destination row — the sum of each node's in-neighbours' rows — and `meanRows`
   multiplies every entry of row `p` of that sum by `invCol` at `p`.  The bias vectors are re-laid as one-row
   matrices.  Which element a gather or a scatter touches depends on the edge list's values, so those two
   operations stay unopened here: they are only ever compared with the same operations on equal operands. -/
import proofs.«149804_j68436008895103_1_alg».proof.Proof.Gen.KernelIdeal

noncomputable section

namespace Cert.KernelIdeal.HostVal

open Idealize.ShloMosaic Cert.KernelIdeal
open Cert.KernelIdeal.Facts₀ Cert.KernelIdeal.Facts

variable {F : FTy → Type} [FloatOps F]

/-- Row 0 of the edge list: the source node of every edge. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the destination node of every edge. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The destination indices as a column of scatter indices. -/
def dstCol (e : (⟨S2x800000, .i32⟩ : BufTy).Contents (Elt F)) : (⟨S800000x1, .i32⟩ : BufTy).Contents (Elt F) :=
  broadcastInDim S800000x1 ![0] bcast_S800000_S800000x1_0 (dstRow (F := F) e)

/-- The source indices, a negative one raised by the node count, as a column of gather indices. -/
def srcCol (e : (⟨S2x800000, .i32⟩ : BufTy).Contents (Elt F)) : (⟨S800000x1, .i32⟩ : BufTy).Contents (Elt F) :=
  broadcastInDim S800000x1 ![0] bcast_S800000_S800000x1_0
    (select (cmpi .slt (srcRow (F := F) e) (broadcastInDim S800000 ![] bcast_S_S800000 (constantI S_ 32 0#32)))
      (addi (srcRow (F := F) e) (broadcastInDim S800000 ![] bcast_S_S800000 (constantI S_ 32 50000#32)))
      (srcRow (F := F) e))

/-- Each node's number of incoming edges, raised to at least one. -/
def cntMax (e : (⟨S2x800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (dstCol (F := F) e)
      (broadcastInDim S800000 ![] bcast_S_S800000 (constant S_ .f32 0x3F800000#32)))
    (broadcastInDim S50000 ![] bcast_S_S50000 (constant S_ .f32 0x3F800000#32))

/-- One over that count, as a column. -/
def invCol (e : (⟨S2x800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32)) (cntMax (F := F) e))

/-- The sum of each node's in-neighbours' rows, for 128 columns. -/
def sumRows128 (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (dstCol (F := F) e)
    (Host.gather gather_S50000x128_S800000x1_S800000x128_1_0_n_n_0_1_1128 h (srcCol (F := F) e))

/-- The mean of each node's in-neighbours' rows as the program forms it: the sum times one over the count. -/
def meanRows128 (h : (⟨S50000x128, .f32⟩ : BufTy).Contents (Elt F)) (e : (⟨S2x800000, .i32⟩ : BufTy).Contents (Elt F)) :
    (⟨S50000x128, .f32⟩ : BufTy).Contents (Elt F) :=
  mulf (sumRows128 (F := F) h e) (broadcastInDim S50000x128 ![0, 1] bcast_S50000x1_S50000x128_0_1 (invCol (F := F) e))

/-- The sum of each node's in-neighbours' rows, for 256 columns. -/
def sumRows256 (h : (⟨S50000x256, .f32⟩ : BufTy).Contents (Elt F)) (e : (⟨S2x800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (dstCol (F := F) e)
    (Host.gather gather_S50000x256_S800000x1_S800000x256_1_0_n_n_0_1_1256 h (srcCol (F := F) e))

/-- The same mean for 256 columns. -/
def meanRows256 (h : (⟨S50000x256, .f32⟩ : BufTy).Contents (Elt F)) (e : (⟨S2x800000, .i32⟩ : BufTy).Contents (Elt F)) :
    (⟨S50000x256, .f32⟩ : BufTy).Contents (Elt F) :=
  mulf (sumRows256 (F := F) h e) (broadcastInDim S50000x256 ![0, 1] bcast_S50000x1_S50000x256_0_1 (invCol (F := F) e))

/-- A 256-entry bias vector as a one-row matrix. -/
def biasRow256 (b : (⟨S256, .f32⟩ : BufTy).Contents (Elt F)) : (⟨S1x256, .f32⟩ : BufTy).Contents (Elt F) :=
  shapeCast _ b shapeCasts_S256_S1x256

/-- The 15-entry bias vector as a one-row matrix. -/
def biasRow15 (b : (⟨S15, .f32⟩ : BufTy).Contents (Elt F)) : (⟨S1x15, .f32⟩ : BufTy).Contents (Elt F) :=
  shapeCast _ b shapeCasts_S15_S1x15

end Cert.KernelIdeal.HostVal

end
-- ==== Proof.Blk0.lean ====
/- Region 0 of the tiled program, block by block.

   The region's grid has 25 points; point t works on rows 2000·t … 2000·t+1999.  Its body reads the block of the
   neighbour mean M and of the nodes' own rows X at row-block t, the two weight matrices Wl, Wr and the bias row b
   whole, and stores  max((M·Wl + X·Wr) + b, 0)  for those rows.  Here that is read index by index: entry (p, q) of
   the stored block is the plain sum of the spec at row 2000·t + p, so every point writes back its block of ONE
   function of the arrays the region finds, and the 25 blocks fill the output array. -/
import proofs.«149804_j68436008895103_1_alg».proof.Proof.Gen.KernelIdeal.Frame
import proofs.«149804_j68436008895103_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384
noncomputable section
namespace Cert.KernelIdeal.Blk0
open Cert.KernelIdeal Cert.KernelIdeal.Gen Idealize.ShloMosaic Idealize.ShloMosaic.TcCoe Idealize.SL.Sem

/-! ## The body's arithmetic at an index -/

/-- The product's left operand is read at the output's row: axis 0 of the left operand is not contracted. -/
theorem lhs_0 (i : S2000x256.Idx) (k : dot_S2000x128_S128x256_S2000x256_1_0_0_1_n_n.contr.Idx) :
    (dot_S2000x128_S128x256_S2000x256_1_0_0_1_n_n.lhsIdx i k 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- and at the contraction index on its axis 1; -/
theorem lhs_1 (i : S2000x256.Idx) (k : dot_S2000x128_S128x256_S2000x256_1_0_0_1_n_n.contr.Idx) :
    (dot_S2000x128_S128x256_S2000x256_1_0_0_1_n_n.lhsIdx i k 1).val = (k ⟨0, by decide⟩).val :=
  dot_S2000x128_S128x256_S2000x256_1_0_0_1_n_n.lhsIdx_val_of_single rfl i k

/-- the right operand at the contraction index on its axis 0 -/
theorem rhs_0 (i : S2000x256.Idx) (k : dot_S2000x128_S128x256_S2000x256_1_0_0_1_n_n.contr.Idx) :
    (dot_S2000x128_S128x256_S2000x256_1_0_0_1_n_n.rhsIdx i k 0).val = (k ⟨0, by decide⟩).val :=
  dot_S2000x128_S128x256_S2000x256_1_0_0_1_n_n.rhsIdx_val_of_single rfl i k

/-- and at the output's column: axis 1 of the right operand is not contracted. -/
theorem rhs_1 (i : S2000x256.Idx) (k : dot_S2000x128_S128x256_S2000x256_1_0_0_1_n_n.contr.Idx) :
    (dot_S2000x128_S128x256_S2000x256_1_0_0_1_n_n.rhsIdx i k 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- A [2000,128]·[128,256] product accumulated onto zero, read at (p, q): the sum over the 128 contracted
    positions of the operands' products, with no rounding at the exact values. -/
theorem mm_apply (A : FVec Ideal S2000x128 .bf16) (B : FVec Ideal S128x256 .bf16) (p : Fin 2000) (q : Fin 256) :
    matmul dot_S2000x128_S128x256_S2000x256_1_0_0_1_n_n none A B (constant (F := Ideal) S2000x256 .f32 0x00000000#32) (ValueIdx.ix2 p q)
      = ∑ k : Fin 128, A (ValueIdx.ix2 p k) * B (ValueIdx.ix2 k q) := by
  refine (Ideal.matmul_constant_zero_apply dot_S2000x128_S128x256_S2000x256_1_0_0_1_n_n none A B (ValueIdx.ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ValueIdx.ix2 p q) ((ValueIdx.contrEquiv1 dot_S2000x128_S128x256_S2000x256_1_0_0_1_n_n 128 rfl rfl).symm k) = ValueIdx.ix2 p k :=
    funext fun a => Fin.ext (by
      match a with
      | ⟨0, _⟩ => exact lhs_0 _ _
      | ⟨1, _⟩ => exact (lhs_1 _ _).trans hk)
  have er : dot_S2000x128_S128x256_S2000x256_1_0_0_1_n_n.rhsIdx (ValueIdx.ix2 p q) ((ValueIdx.contrEquiv1 dot_S2000x128_S128x256_S2000x256_1_0_0_1_n_n 128 rfl rfl).symm k) = ValueIdx.ix2 k q :=
    funext fun a => Fin.ext (by
      match a with
      | ⟨0, _⟩ => exact (rhs_0 _ _).trans hk
      | ⟨1, _⟩ => exact rhs_1 _ _)
  rw [el, er]

/-- THE BODY'S RESULT, entry by entry: the products' operands are the loaded blocks themselves (narrowing to bf16
    changes nothing at the exact values, and the cast of the first block is to its own shape), the bias row is read
    at the entry's column, and the constant the maximum is taken with is zero. -/
theorem pay_eq (x0 x1 : Vec Ideal S2000x128 .f32) (x2 x4 : Vec Ideal S128x256 .f32) (x3 : Vec Ideal S1x256 .f32) :
    k0_pay1 (F := Ideal) x0 x1 x2 x4 x3 = Cert.SageNet.fusedK x0 x1 x2 x3 x4 := by
  funext j
  obtain ⟨p, q, rfl⟩ : ∃ (p : Fin 2000) (q : Fin 256), j = ValueIdx.ix2 p q := ⟨j 0, j 1, ValueIdx.eq_ix2 j⟩
  have e0 : shapeCast S2000x128 x0 shapeCasts_S2000x128_S2000x128 = x0 := shapeCast_self x0 _
  have e3 : shapeCast S1x256 x3 shapeCasts_S1x256_S1x256 = x3 := shapeCast_self x3 _
  have h1 : matmul dot_S2000x128_S128x256_S2000x256_1_0_0_1_n_n none
        (truncf .bf16 (shapeCast S2000x128 x0 shapeCasts_S2000x128_S2000x128) bitsLt_bf16_f32) (truncf .bf16 x2 bitsLt_bf16_f32)
        (constant (F := Ideal) S2000x256 .f32 0x00000000#32) (ValueIdx.ix2 p q)
      = ∑ k : Fin 128, x0 (ValueIdx.ix2 p k) * x2 (ValueIdx.ix2 k q) := by
    rw [e0]; exact mm_apply _ _ p q
  have h2 : matmul dot_S2000x128_S128x256_S2000x256_1_0_0_1_n_n none
        (truncf .bf16 x1 bitsLt_bf16_f32) (truncf .bf16 x4 bitsLt_bf16_f32)
        (constant (F := Ideal) S2000x256 .f32 0x00000000#32) (ValueIdx.ix2 p q)
      = ∑ k : Fin 128, x1 (ValueIdx.ix2 p k) * x4 (ValueIdx.ix2 k q) := mm_apply _ _ p q
  have h3 : broadcastTo S2000x256 (shapeCast S1x256 x3 shapeCasts_S1x256_S1x256) broadcasts_S1x256_S2000x256 (ValueIdx.ix2 p q)
      = x3 (ValueIdx.ix2 (0 : Fin 1) q) := by
    rw [e3]; exact ValueIdx.broadcastTo_1b_ab_apply x3 _ p q
  have h4 : (Scalar.ofBits (F := Ideal) .f32 0x00000000#32) = (0 : EReal) := Ideal.ofBits_zero_f32
  exact congrArg₂ max (congrArg₂ (· + ·) (congrArg₂ (· + ·) h1 h2) h3) h4

/-! ## The blocks -/

theorem hz : (![0, 0] : Fin 2 → Nat) = fun _ => 0 := funext fun a => by fin_cases a <;> rfl

/-- The printed index maps, decided once over the 25 points: the mean's, the rows' and the output's windows sit at
    row-block t, column-block 0; the two weight matrices and the bias row are whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row-block of the output is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

section Reads
variable (V : (c : Dev nD) → (b : Ref sig .tc) → Buf (Elt Ideal) ((c : Thread nD τ).loc b)) (c : Dev nD) (t : Fin cfg0.N)

/-- The mean's block at point t is rows 2000·t … 2000·t + 1999 of the mean. -/
theorem iblk_0_apply (x : S2000x128.Idx) (k : S50000x128.Idx)
    (hk0 : (k 0).val = 2000 * t.val + (x 0).val) (hk1 : (k 1).val = (x 1).val) :
    (iblk0 (F := Ideal) V c 0 t : Vec Ideal S2000x128 .f32) x = (V c main_v24 : S50000x128.Idx → Elt Ideal .f32) k := by
  obtain ⟨e0, e1, -⟩ := idx_facts t
  unfold iblk0
  rw [View.read_apply]
  show V c main_v24 _ = V c main_v24 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The nodes' block at point t is the same rows of the nodes' own features. -/
theorem iblk_1_apply (x : S2000x128.Idx) (k : S50000x128.Idx)
    (hk0 : (k 0).val = 2000 * t.val + (x 0).val) (hk1 : (k 1).val = (x 1).val) :
    (iblk0 (F := Ideal) V c 1 t : Vec Ideal S2000x128 .f32) x = (V c main_arg0 : S50000x128.Idx → Elt Ideal .f32) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 2000 + 1 * (x 0).val = (k 0).val; rw [e0, hk0]; omega
  | ⟨1, _⟩ => show win0_1.index t (1 : Fin 2) * 128 + 1 * (x 1).val = (k 1).val; rw [e1, hk1]; omega

/-- The first weight matrix's block is the matrix, at every point. -/
theorem iblk_2_apply (x : S128x256.Idx) :
    (iblk0 (F := Ideal) V c 2 t : Vec Ideal S128x256 .f32) x = (V c main_arg2 : S128x256.Idx → Elt Ideal .f32) x := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 256 + 1 * (x 1).val = (x 1).val; rw [e1]; omega

/-- The bias row's block is the row, at every point. -/
theorem iblk_3_apply (x : S1x256.Idx) :
    (iblk0 (F := Ideal) V c 3 t : Vec Ideal S1x256 .f32) x = (V c main_v25 : S1x256.Idx → Elt Ideal .f32) x := by
  obtain ⟨-, -, -, -, -, -, e0, e1, -⟩ := idx_facts t
  unfold iblk0
  rw [View.read_apply]
  show V c main_v25 _ = V c main_v25 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- The second weight matrix's block is the matrix, at every point. -/
theorem iblk_4_apply (x : S128x256.Idx) :
    (iblk0 (F := Ideal) V c 4 t : Vec Ideal S128x256 .f32) x = (V c main_arg4 : S128x256.Idx → Elt Ideal .f32) x := by
  obtain ⟨-, -, -, -, -, -, -, -, e0, e1, -⟩ := idx_facts t
  unfold iblk0
  rw [View.read_apply]
  show V c main_arg4 _ = V c main_arg4 _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 256 + 1 * (x 1).val = (x 1).val; rw [e1]; omega

end Reads

/-- Entry j of the layer computed from blocks is entry i of the layer computed from the arrays as soon as the
    blocks' row (j 0) is the arrays' row (i 0) and the column is the same: an entry depends on ONE row of the mean
    and of the nodes' features, one column of each weight matrix and one entry of the bias. -/
theorem fusedK_block (M X : S50000x128.Idx → EReal) (Wl Wr : S128x256.Idx → EReal) (b : S1x256.Idx → EReal)
    (m x : S2000x128.Idx → EReal) (wl wr : S128x256.Idx → EReal) (b' : S1x256.Idx → EReal)
    (j : S2000x256.Idx) (i : S50000x256.Idx)
    (hm : ∀ k : Fin 128, m (ValueIdx.ix2 (j 0) k) = M (ValueIdx.ix2 (i 0) k))
    (hx : ∀ k : Fin 128, x (ValueIdx.ix2 (j 0) k) = X (ValueIdx.ix2 (i 0) k))
    (hwl : ∀ k : Fin 128, wl (ValueIdx.ix2 k (j 1)) = Wl (ValueIdx.ix2 k (i 1)))
    (hwr : ∀ k : Fin 128, wr (ValueIdx.ix2 k (j 1)) = Wr (ValueIdx.ix2 k (i 1)))
    (hb : b' (ValueIdx.ix2 (0 : Fin 1) (j 1)) = b (ValueIdx.ix2 (0 : Fin 1) (i 1))) :
    Cert.SageNet.fusedK m x wl b' wr j = Cert.SageNet.fusedK M X Wl b Wr i := by
  unfold Cert.SageNet.fusedK
  exact congrArg₂ max (congrArg₂ (· + ·) (congrArg₂ (· + ·)
      (Finset.sum_congr rfl fun k _ => congrArg₂ (· * ·) (hm k) (hwl k))
      (Finset.sum_congr rfl fun k _ => congrArg₂ (· * ·) (hx k) (hwr k))) hb) rfl

/-- WHAT POINT t WRITES BACK is block t of the layer of the arrays the region finds: the stored payload is the layer
    of the loaded blocks, and row p of the blocks is row 2000·t + p of the arrays. -/
theorem flushed_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (Cert.SageNet.fusedK (V c main_v24) (V c main_arg0) (V c main_arg2) (V c main_v25) (V c main_arg4)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  rw [pay_eq]
  obtain ⟨-, -, -, -, -, -, -, -, -, -, e0, e1⟩ := idx_facts t
  refine funext fun (y : S2000x256.Idx) => ?_
  have hE0 : ((((cfg0.win 5).blk t).view.emb y : S50000x256.Idx) 0).val = 2000 * t.val + (y 0).val := by
    show win0_5.index t (0 : Fin 2) * 2000 + 1 * (y 0).val = _; rw [e0]; omega
  have hE1 : ((((cfg0.win 5).blk t).view.emb y : S50000x256.Idx) 1).val = (y 1).val := by
    show win0_5.index t (1 : Fin 2) * 256 + 1 * (y 1).val = _; rw [e1]; omega
  refine fusedK_block (V c main_v24) (V c main_arg0) (V c main_arg2) (V c main_arg4) (V c main_v25)
    (iblk0 V c 0 t) (iblk0 V c 1 t) (iblk0 V c 2 t) (iblk0 V c 4 t) (iblk0 V c 3 t) y (((cfg0.win 5).blk t).view.emb y) ?_ ?_ ?_ ?_ ?_
  · exact fun k => iblk_0_apply V c t _ _ hE0 rfl
  · exact fun k => iblk_1_apply V c t _ _ hE0 rfl
  · exact fun k => (iblk_2_apply V c t _).trans (congrArg (V c main_arg2) (funext fun a => Fin.ext (by
      match a with
      | ⟨0, _⟩ => rfl
      | ⟨1, _⟩ => exact hE1.symm)))
  · exact fun k => (iblk_4_apply V c t _).trans (congrArg (V c main_arg4) (funext fun a => Fin.ext (by
      match a with
      | ⟨0, _⟩ => rfl
      | ⟨1, _⟩ => exact hE1.symm)))
  · exact (iblk_3_apply V c t _).trans (congrArg (V c main_v25) (funext fun a => Fin.ext (by
      match a with
      | ⟨0, _⟩ => rfl
      | ⟨1, _⟩ => exact hE1.symm)))

/-! ## The blocks fill the array -/

/-- An index of the output array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- Row r of the output is in the block of the point whose row-block is r / 2000, and every point writes back. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE OUTPUT ARRAY after the region: the layer of the arrays the region finds, whatever they hold. -/
theorem final (V : (c : Dev nD) → (b : Ref sig .tc) → Buf (Elt Ideal) ((c : Thread nD τ).loc b)) (c : Dev nD) :
    (dat0 (F := Ideal) V c).arrAt 5 cfg0.N
      = Cert.SageNet.fusedK (V c main_v24) (V c main_arg0) (V c main_arg2) (V c main_v25) (V c main_arg4) :=
  (dat0 V c).arrAt_eq_of_cover 5 _ (fun t _ => flushed_eq V c t) cover

end Cert.KernelIdeal.Blk0

end
-- ==== Proof.Blk1.lean ====
/- Region 1 of the tiled program, block by block, and then as a whole array.

   The region's grid has 25 points; point t loads rows 2000·t … 2000·t + 1999 of the neighbour means and of the nodes'
   own rows, the two [256,256] weight matrices and the bias row whole, and stores one [2000,256] block:
   max((m·Wl + x·Wr) + b, 0) of what it loaded. Entry (p, q) of that block depends on row p of the two row blocks,
   column q of the two weight matrices and entry q of the bias only, so it is entry (2000·t + p, q) of the same
   expression of the whole arrays; the 25 blocks tile the 50000 rows, so the output array ends holding that
   expression of the arrays found at entry, whatever they are. -/
import proofs.«149804_j68436008895103_1_alg».proof.Proof.Gen.KernelIdeal.Frame
import proofs.«149804_j68436008895103_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384
noncomputable section
namespace Cert.KernelIdeal.Blk1
open Cert.KernelIdeal Cert.KernelIdeal.Gen Idealize.ShloMosaic Idealize.ShloMosaic.TcCoe Idealize.SL.Sem

/-! ## The body's arithmetic at an entry -/

/-- The left operand's row index of the product at output row `p` is `p`. -/
theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its column index is the contraction index. -/
theorem lhs_col (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row index is the contraction index. -/
theorem rhs_row (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- Its column index is the output's column `q`. -/
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A [2000,256] × [256,256] product accumulated into zero, read at entry (p, q): ∑ k, A(p,k) · B(k,q). -/
theorem mm_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ValueIdx.ix2 p q)
      = ∑ k : Fin 256, A (ValueIdx.ix2 p k) * B (ValueIdx.ix2 k q) := by
  refine (Ideal.matmul_constant_zero_apply dot_S2000x256_S256x256_S2000x256_1_0_0_1_n_n none A B (ValueIdx.ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ValueIdx.ix2 p q) ((ValueIdx.contrEquiv1 dot_S2000x256_S256x256_S2000x256_1_0_0_1_n_n 256 rfl rfl).symm k) = ValueIdx.ix2 p k := funext fun a => Fin.ext (by
    match a with
    | ⟨0, _⟩ => exact lhs_row _ _
    | ⟨1, _⟩ => exact (lhs_col _ _).trans hk)
  have er : dot_S2000x256_S256x256_S2000x256_1_0_0_1_n_n.rhsIdx (ValueIdx.ix2 p q) ((ValueIdx.contrEquiv1 dot_S2000x256_S256x256_S2000x256_1_0_0_1_n_n 256 rfl rfl).symm k) = ValueIdx.ix2 k q := funext fun a => Fin.ext (by
    match a with
    | ⟨0, _⟩ => exact (rhs_row _ _).trans hk
    | ⟨1, _⟩ => exact rhs_col _ _)
  rw [el, er]

/-- The body's one stored value is the fused layer of its five loaded blocks: the casts to the narrower float are the
    identity on the extended reals, each product into zero is the plain sum over the contraction, the bias row is read
    at the entry's column, and the maximum is against the real zero. -/
theorem pay_eq (x0 x1 : Vec Ideal S2000x256 .f32) (x2 x4 : Vec Ideal S256x256 .f32) (x3 : Vec Ideal S1x256 .f32) :
    k1_pay1 (F := Ideal) x0 x1 x2 x4 x3 = Cert.SageNet.fusedK x0 x1 x2 x3 x4 := by
  funext j
  obtain ⟨p, q, rfl⟩ : ∃ (p : Fin 2000) (q : Fin 256), j = ValueIdx.ix2 p q := ⟨j 0, j 1, ValueIdx.eq_ix2 j⟩
  unfold k1_pay1
  refine (ValueIdx.maximumf_apply _ _ _).trans ?_
  refine (congrArg₂ max ?_ ?_).trans (Cert.SageNet.fusedK_apply x0 x1 x2 x3 x4 p q).symm
  · refine (ValueIdx.addf_apply _ _ _).trans ?_
    refine congrArg₂ (· + ·) ?_ ?_
    · refine (ValueIdx.addf_apply _ _ _).trans ?_
      refine congrArg₂ (· + ·) ?_ ?_
      · refine (mm_apply _ _ p q).trans ?_
        rw [shapeCast_self]
        rfl
      · refine (mm_apply _ _ p q).trans ?_
        rw [shapeCast_self]
        rfl
    · rw [shapeCast_self]
      exact ValueIdx.broadcastTo_1b_ab_apply x3 broadcasts_S1x256_S2000x256 p q
  · exact Ideal.ofBits_zero_f32

/-! ## From the blocks to the array -/

theorem hz : (![0, 0] : Fin 2 → Nat) = fun _ => 0 := funext fun a => by fin_cases a <;> rfl

/-- The printed index maps over the 25 grid points: the neighbour-mean, own-row and output windows sit at row block
    `t`, column block 0; the two weight matrices and the bias row are whole at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The fused layer of a block of rows. If `m` and `x` are rows r … r+1999 of `M` and `X` (an entry of the block
    at (p, k) is the arrays' entry at (r + p, k)) and the weights and the bias are the whole arrays, then entry (p, q)
    of the block's layer is entry (r + p, q) of the arrays' layer: an entry depends on row p of the two row blocks,
    column q of the weights and entry q of the bias only. -/
theorem fused_rows (M X : S50000x256.Idx → EReal) (Wl Wr : S256x256.Idx → EReal) (b : S1x256.Idx → EReal)
    (m x : S2000x256.Idx → EReal) (wl wr : S256x256.Idx → EReal) (bb : S1x256.Idx → EReal)
    (y : S2000x256.Idx) (i : S50000x256.Idx) (r : ℕ)
    (h0 : (i 0).val = r + (y 0).val) (h1 : (i 1).val = (y 1).val)
    (hm : ∀ (y' : S2000x256.Idx) (i' : S50000x256.Idx), (i' 0).val = r + (y' 0).val → (i' 1).val = (y' 1).val → m y' = M i')
    (hx : ∀ (y' : S2000x256.Idx) (i' : S50000x256.Idx), (i' 0).val = r + (y' 0).val → (i' 1).val = (y' 1).val → x y' = X i')
    (hwl : wl = Wl) (hb : bb = b) (hwr : wr = Wr) :
    Cert.SageNet.fusedK m x wl bb wr y = Cert.SageNet.fusedK M X Wl b Wr i := by
  subst hwl hb hwr
  obtain ⟨p, q, rfl⟩ : ∃ (p : Fin 2000) (q : Fin 256), y = ValueIdx.ix2 p q := ⟨y 0, y 1, ValueIdx.eq_ix2 y⟩
  obtain ⟨P, Q, rfl⟩ : ∃ (P : Fin 50000) (Q : Fin 256), i = ValueIdx.ix2 P Q := ⟨i 0, i 1, ValueIdx.eq_ix2 i⟩
  obtain rfl : Q = q := Fin.ext h1
  rw [Cert.SageNet.fusedK_apply, Cert.SageNet.fusedK_apply]
  have e1 : ∀ k : Fin 256, m (ValueIdx.ix2 p k) = M (ValueIdx.ix2 P k) := fun k => hm _ _ h0 rfl
  have e2 : ∀ k : Fin 256, x (ValueIdx.ix2 p k) = X (ValueIdx.ix2 P k) := fun k => hx _ _ h0 rfl
  simp only [e1, e2]

/-- What point `t` writes back is block `t` of the fused layer of the arrays the region finds: the two row blocks it
    loaded are rows 2000·t … 2000·t + 1999 of the neighbour means and of the nodes' own rows, and the weights and the
    bias are loaded whole. -/
theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (Cert.SageNet.fusedK (V c main_v38) (V c main_v26) (V c main_arg5) (V c main_v39) (V c main_arg7)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  rw [pay_eq]
  obtain ⟨e00, e01, e10, e11, e20, e21, e30, e31, e40, e41, e50, e51⟩ := idx_facts t
  funext y
  show Cert.SageNet.fusedK (iblk1 V c 0 t) (iblk1 V c 1 t) (iblk1 V c 2 t) (iblk1 V c 3 t) (iblk1 V c 4 t) y
    = Cert.SageNet.fusedK (V c main_v38) (V c main_v26) (V c main_arg5) (V c main_v39) (V c main_arg7) (((cfg1.win 5).blk t).view.emb y)
  refine fused_rows _ _ _ _ _ _ _ _ _ _ y _ (t.val * 2000) ?_ ?_ ?_ ?_ ?_ ?_ ?_
  · show win1_5.index t (0 : Fin 2) * 2000 + 1 * (y 0).val = _
    rw [e50]; omega
  · show win1_5.index t (1 : Fin 2) * 256 + 1 * (y 1).val = _
    rw [e51]; omega
  · intro y' i' h0 h1
    show V c main_v38 (((cfg1.win 0).blk t).view.emb y') = V c main_v38 i'
    refine congrArg _ (funext fun a => Fin.ext ?_)
    match a with
    | ⟨0, _⟩ => show win1_0.index t (0 : Fin 2) * 2000 + 1 * (y' 0).val = (i' 0).val; rw [e00, h0]; omega
    | ⟨1, _⟩ => show win1_0.index t (1 : Fin 2) * 256 + 1 * (y' 1).val = (i' 1).val; rw [e01, h1]; omega
  · intro y' i' h0 h1
    show V c main_v26 (((cfg1.win 1).blk t).view.emb y') = V c main_v26 i'
    refine congrArg _ (funext fun a => Fin.ext ?_)
    match a with
    | ⟨0, _⟩ => show win1_1.index t (0 : Fin 2) * 2000 + 1 * (y' 0).val = (i' 0).val; rw [e10, h0]; omega
    | ⟨1, _⟩ => show win1_1.index t (1 : Fin 2) * 256 + 1 * (y' 1).val = (i' 1).val; rw [e11, h1]; omega
  · funext z
    show V c main_arg5 (((cfg1.win 2).blk t).view.emb z) = V c main_arg5 z
    refine congrArg _ (funext fun a => Fin.ext ?_)
    match a with
    | ⟨0, _⟩ => show win1_2.index t (0 : Fin 2) * 256 + 1 * (z 0).val = (z 0).val; rw [e20]; omega
    | ⟨1, _⟩ => show win1_2.index t (1 : Fin 2) * 256 + 1 * (z 1).val = (z 1).val; rw [e21]; omega
  · funext z
    show V c main_v39 (((cfg1.win 3).blk t).view.emb z) = V c main_v39 z
    refine congrArg _ (funext fun a => Fin.ext ?_)
    match a with
    | ⟨0, _⟩ => show win1_3.index t (0 : Fin 2) * 1 + 1 * (z 0).val = (z 0).val; rw [e30]; omega
    | ⟨1, _⟩ => show win1_3.index t (1 : Fin 2) * 256 + 1 * (z 1).val = (z 1).val; rw [e31]; omega
  · funext z
    show V c main_arg7 (((cfg1.win 4).blk t).view.emb z) = V c main_arg7 z
    refine congrArg _ (funext fun a => Fin.ext ?_)
    match a with
    | ⟨0, _⟩ => show win1_4.index t (0 : Fin 2) * 256 + 1 * (z 0).val = (z 0).val; rw [e40]; omega
    | ⟨1, _⟩ => show win1_4.index t (1 : Fin 2) * 256 + 1 * (z 1).val = (z 1).val; rw [e41]; omega

/-- An index of the output array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v40).slice (win1_5.rect t)).set ↔ _
  rw [View.set_slice_whole, Rect.mem_set_unit]
  exact Iff.rfl

/-- The 25 blocks of 2000 rows tile the 50000 rows: row `r` is in the block of point `r / 2000`, and every point
    writes its block back. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e50, ht]; omega
  | ⟨1, _⟩ =>
    show win1_5.index t (1 : Fin 2) * 256 ≤ (i 1).val ∧ (i 1).val < win1_5.index t (1 : Fin 2) * 256 + 256
    rw [e51]; omega

/-- Region 1 leaves in its output array the fused layer of the arrays it finds at entry. -/
theorem final (V : (c : Dev nD) → (b : Ref sig .tc) → Buf (Elt Ideal) ((c : Thread nD τ).loc b)) (c : Dev nD) :
    (dat1 (F := Ideal) V c).arrAt 5 cfg1.N
      = Cert.SageNet.fusedK (V c main_v38) (V c main_v26) (V c main_arg5) (V c main_v39) (V c main_arg7) :=
  (dat1 V c).arrAt_eq_of_cover 5 _ (fun t _ => flushed_eq V c t) cover

end Cert.KernelIdeal.Blk1

end
-- ==== Proof.Blk2.lean ====
/- Region 2 of the tiled program, block by block, and then as a whole array.

   The region's grid has 25 points; point t loads rows 2000·t … 2000·t + 1999 of the neighbour means and of the nodes'
   own rows, the two [256,256] weight matrices and the bias row whole, and stores one [2000,256] block:
   max((m·Wl + x·Wr) + b, 0) of what it loaded. Entry (p, q) of that block depends on row p of the two row blocks,
   column q of the two weight matrices and entry q of the bias only, so it is entry (2000·t + p, q) of the same
   expression of the whole arrays; the 25 blocks tile the 50000 rows, so the output array ends holding that
   expression of the arrays found at entry, whatever they are. -/
import proofs.«149804_j68436008895103_1_alg».proof.Proof.Gen.KernelIdeal.Frame
import proofs.«149804_j68436008895103_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384
noncomputable section
namespace Cert.KernelIdeal.Blk2
open Cert.KernelIdeal Cert.KernelIdeal.Gen Idealize.ShloMosaic Idealize.ShloMosaic.TcCoe Idealize.SL.Sem

/-! ## The body's arithmetic at an entry -/

/-- The left operand's row index of the product at output row `p` is `p`. -/
theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its column index is the contraction index. -/
theorem lhs_col (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row index is the contraction index. -/
theorem rhs_row (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- Its column index is the output's column `q`. -/
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A [2000,256] × [256,256] product accumulated into zero, read at entry (p, q): ∑ k, A(p,k) · B(k,q). -/
theorem mm_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ValueIdx.ix2 p q)
      = ∑ k : Fin 256, A (ValueIdx.ix2 p k) * B (ValueIdx.ix2 k q) := by
  refine (Ideal.matmul_constant_zero_apply dot_S2000x256_S256x256_S2000x256_1_0_0_1_n_n none A B (ValueIdx.ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ValueIdx.ix2 p q) ((ValueIdx.contrEquiv1 dot_S2000x256_S256x256_S2000x256_1_0_0_1_n_n 256 rfl rfl).symm k) = ValueIdx.ix2 p k := funext fun a => Fin.ext (by
    match a with
    | ⟨0, _⟩ => exact lhs_row _ _
    | ⟨1, _⟩ => exact (lhs_col _ _).trans hk)
  have er : dot_S2000x256_S256x256_S2000x256_1_0_0_1_n_n.rhsIdx (ValueIdx.ix2 p q) ((ValueIdx.contrEquiv1 dot_S2000x256_S256x256_S2000x256_1_0_0_1_n_n 256 rfl rfl).symm k) = ValueIdx.ix2 k q := funext fun a => Fin.ext (by
    match a with
    | ⟨0, _⟩ => exact (rhs_row _ _).trans hk
    | ⟨1, _⟩ => exact rhs_col _ _)
  rw [el, er]

/-- The body's one stored value is the fused layer of its five loaded blocks: the casts to the narrower float are the
    identity on the extended reals, each product into zero is the plain sum over the contraction, the bias row is read
    at the entry's column, and the maximum is against the real zero. -/
theorem pay_eq (x0 x1 : Vec Ideal S2000x256 .f32) (x2 x4 : Vec Ideal S256x256 .f32) (x3 : Vec Ideal S1x256 .f32) :
    k2_pay1 (F := Ideal) x0 x1 x2 x4 x3 = Cert.SageNet.fusedK x0 x1 x2 x3 x4 := by
  funext j
  obtain ⟨p, q, rfl⟩ : ∃ (p : Fin 2000) (q : Fin 256), j = ValueIdx.ix2 p q := ⟨j 0, j 1, ValueIdx.eq_ix2 j⟩
  unfold k2_pay1
  refine (ValueIdx.maximumf_apply _ _ _).trans ?_
  refine (congrArg₂ max ?_ ?_).trans (Cert.SageNet.fusedK_apply x0 x1 x2 x3 x4 p q).symm
  · refine (ValueIdx.addf_apply _ _ _).trans ?_
    refine congrArg₂ (· + ·) ?_ ?_
    · refine (ValueIdx.addf_apply _ _ _).trans ?_
      refine congrArg₂ (· + ·) ?_ ?_
      · refine (mm_apply _ _ p q).trans ?_
        rw [shapeCast_self]
        rfl
      · refine (mm_apply _ _ p q).trans ?_
        rw [shapeCast_self]
        rfl
    · rw [shapeCast_self]
      exact ValueIdx.broadcastTo_1b_ab_apply x3 broadcasts_S1x256_S2000x256 p q
  · exact Ideal.ofBits_zero_f32

/-! ## From the blocks to the array -/

theorem hz : (![0, 0] : Fin 2 → Nat) = fun _ => 0 := funext fun a => by fin_cases a <;> rfl

/-- The printed index maps over the 25 grid points: the neighbour-mean, own-row and output windows sit at row block
    `t`, column block 0; the two weight matrices and the bias row are whole at every point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The fused layer of a block of rows. If `m` and `x` are rows r … r+1999 of `M` and `X` (an entry of the block
    at (p, k) is the arrays' entry at (r + p, k)) and the weights and the bias are the whole arrays, then entry (p, q)
    of the block's layer is entry (r + p, q) of the arrays' layer: an entry depends on row p of the two row blocks,
    column q of the weights and entry q of the bias only. -/
theorem fused_rows (M X : S50000x256.Idx → EReal) (Wl Wr : S256x256.Idx → EReal) (b : S1x256.Idx → EReal)
    (m x : S2000x256.Idx → EReal) (wl wr : S256x256.Idx → EReal) (bb : S1x256.Idx → EReal)
    (y : S2000x256.Idx) (i : S50000x256.Idx) (r : ℕ)
    (h0 : (i 0).val = r + (y 0).val) (h1 : (i 1).val = (y 1).val)
    (hm : ∀ (y' : S2000x256.Idx) (i' : S50000x256.Idx), (i' 0).val = r + (y' 0).val → (i' 1).val = (y' 1).val → m y' = M i')
    (hx : ∀ (y' : S2000x256.Idx) (i' : S50000x256.Idx), (i' 0).val = r + (y' 0).val → (i' 1).val = (y' 1).val → x y' = X i')
    (hwl : wl = Wl) (hb : bb = b) (hwr : wr = Wr) :
    Cert.SageNet.fusedK m x wl bb wr y = Cert.SageNet.fusedK M X Wl b Wr i := by
  subst hwl hb hwr
  obtain ⟨p, q, rfl⟩ : ∃ (p : Fin 2000) (q : Fin 256), y = ValueIdx.ix2 p q := ⟨y 0, y 1, ValueIdx.eq_ix2 y⟩
  obtain ⟨P, Q, rfl⟩ : ∃ (P : Fin 50000) (Q : Fin 256), i = ValueIdx.ix2 P Q := ⟨i 0, i 1, ValueIdx.eq_ix2 i⟩
  obtain rfl : Q = q := Fin.ext h1
  rw [Cert.SageNet.fusedK_apply, Cert.SageNet.fusedK_apply]
  have e1 : ∀ k : Fin 256, m (ValueIdx.ix2 p k) = M (ValueIdx.ix2 P k) := fun k => hm _ _ h0 rfl
  have e2 : ∀ k : Fin 256, x (ValueIdx.ix2 p k) = X (ValueIdx.ix2 P k) := fun k => hx _ _ h0 rfl
  simp only [e1, e2]

/-- What point `t` writes back is block `t` of the fused layer of the arrays the region finds: the two row blocks it
    loaded are rows 2000·t … 2000·t + 1999 of the neighbour means and of the nodes' own rows, and the weights and the
    bias are loaded whole. -/
theorem flushed_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (Cert.SageNet.fusedK (V c main_v52) (V c main_v40) (V c main_arg8) (V c main_v53) (V c main_arg10)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  rw [pay_eq]
  obtain ⟨e00, e01, e10, e11, e20, e21, e30, e31, e40, e41, e50, e51⟩ := idx_facts t
  funext y
  show Cert.SageNet.fusedK (iblk2 V c 0 t) (iblk2 V c 1 t) (iblk2 V c 2 t) (iblk2 V c 3 t) (iblk2 V c 4 t) y
    = Cert.SageNet.fusedK (V c main_v52) (V c main_v40) (V c main_arg8) (V c main_v53) (V c main_arg10) (((cfg2.win 5).blk t).view.emb y)
  refine fused_rows _ _ _ _ _ _ _ _ _ _ y _ (t.val * 2000) ?_ ?_ ?_ ?_ ?_ ?_ ?_
  · show win2_5.index t (0 : Fin 2) * 2000 + 1 * (y 0).val = _
    rw [e50]; omega
  · show win2_5.index t (1 : Fin 2) * 256 + 1 * (y 1).val = _
    rw [e51]; omega
  · intro y' i' h0 h1
    show V c main_v52 (((cfg2.win 0).blk t).view.emb y') = V c main_v52 i'
    refine congrArg _ (funext fun a => Fin.ext ?_)
    match a with
    | ⟨0, _⟩ => show win2_0.index t (0 : Fin 2) * 2000 + 1 * (y' 0).val = (i' 0).val; rw [e00, h0]; omega
    | ⟨1, _⟩ => show win2_0.index t (1 : Fin 2) * 256 + 1 * (y' 1).val = (i' 1).val; rw [e01, h1]; omega
  · intro y' i' h0 h1
    show V c main_v40 (((cfg2.win 1).blk t).view.emb y') = V c main_v40 i'
    refine congrArg _ (funext fun a => Fin.ext ?_)
    match a with
    | ⟨0, _⟩ => show win2_1.index t (0 : Fin 2) * 2000 + 1 * (y' 0).val = (i' 0).val; rw [e10, h0]; omega
    | ⟨1, _⟩ => show win2_1.index t (1 : Fin 2) * 256 + 1 * (y' 1).val = (i' 1).val; rw [e11, h1]; omega
  · funext z
    show V c main_arg8 (((cfg2.win 2).blk t).view.emb z) = V c main_arg8 z
    refine congrArg _ (funext fun a => Fin.ext ?_)
    match a with
    | ⟨0, _⟩ => show win2_2.index t (0 : Fin 2) * 256 + 1 * (z 0).val = (z 0).val; rw [e20]; omega
    | ⟨1, _⟩ => show win2_2.index t (1 : Fin 2) * 256 + 1 * (z 1).val = (z 1).val; rw [e21]; omega
  · funext z
    show V c main_v53 (((cfg2.win 3).blk t).view.emb z) = V c main_v53 z
    refine congrArg _ (funext fun a => Fin.ext ?_)
    match a with
    | ⟨0, _⟩ => show win2_3.index t (0 : Fin 2) * 1 + 1 * (z 0).val = (z 0).val; rw [e30]; omega
    | ⟨1, _⟩ => show win2_3.index t (1 : Fin 2) * 256 + 1 * (z 1).val = (z 1).val; rw [e31]; omega
  · funext z
    show V c main_arg10 (((cfg2.win 4).blk t).view.emb z) = V c main_arg10 z
    refine congrArg _ (funext fun a => Fin.ext ?_)
    match a with
    | ⟨0, _⟩ => show win2_4.index t (0 : Fin 2) * 256 + 1 * (z 0).val = (z 0).val; rw [e40]; omega
    | ⟨1, _⟩ => show win2_4.index t (1 : Fin 2) * 256 + 1 * (z 1).val = (z 1).val; rw [e41]; omega

/-- An index of the output array is in point `t`'s block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v54).slice (win2_5.rect t)).set ↔ _
  rw [View.set_slice_whole, Rect.mem_set_unit]
  exact Iff.rfl

/-- The 25 blocks of 2000 rows tile the 50000 rows: row `r` is in the block of point `r / 2000`, and every point
    writes its block back. -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, -, -, -, -, e50, e51⟩ := idx_facts t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    rw [e50, ht]; omega
  | ⟨1, _⟩ =>
    show win2_5.index t (1 : Fin 2) * 256 ≤ (i 1).val ∧ (i 1).val < win2_5.index t (1 : Fin 2) * 256 + 256
    rw [e51]; omega

/-- Region 2 leaves in its output array the fused layer of the arrays it finds at entry. -/
theorem final (V : (c : Dev nD) → (b : Ref sig .tc) → Buf (Elt Ideal) ((c : Thread nD τ).loc b)) (c : Dev nD) :
    (dat2 (F := Ideal) V c).arrAt 5 cfg2.N
      = Cert.SageNet.fusedK (V c main_v52) (V c main_v40) (V c main_arg8) (V c main_v53) (V c main_arg10) :=
  (dat2 V c).arrAt_eq_of_cover 5 _ (fun t _ => flushed_eq V c t) cover

end Cert.KernelIdeal.Blk2

end
-- ==== Proof.Blk3.lean ====
/- Region 3 of the tiled program: the last linear layer, block by block.

   The region runs 25 points; point t handles rows 2000·t … 2000·t + 1999 of the hidden state X ([50000,256]),
   reads the whole weight matrix Wo ([256,15]) and the whole bias row b ([1,15]), and writes rows
   2000·t … 2000·t + 1999 of the result ([50000,15]). Here:
   • the body's payload on a loaded block is  X_blk·Wo + b  entry by entry (the two narrowings to the
     shorter float format and the two same-shape casts are the identity on the extended reals; the product into the
     zero accumulator is the plain sum over the contracted axis);
   • each window's block at a point, read off the array at the block's offset: a block's coordinate in the array is
     (block index) × (block size) + 1 × (coordinate inside the block);
   • so point t writes back block t of  X·Wo + b  of the arrays found at entry;
   • the 25 row blocks tile the result array and every point writes back, hence the array ends as  X·Wo + b. -/
import proofs.«149804_j68436008895103_1_alg».proof.Proof.Gen.KernelIdeal.Frame
import proofs.«149804_j68436008895103_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384
noncomputable section
namespace Cert.KernelIdeal.Blk3
open Cert.KernelIdeal Cert.KernelIdeal.Gen Idealize.ShloMosaic Idealize.ShloMosaic.TcCoe Idealize.SL.Sem

/-! ## The contraction of the block's matrix product, index by index -/

theorem lhs_0 (i : S2000x15.Idx) (q : dot_S2000x256_S256x15_S2000x15_1_0_0_1_n_n.contr.Idx) :
    (dot_S2000x256_S256x15_S2000x15_1_0_0_1_n_n.lhsIdx i q 0).val = (i 0).val := by
  unfold DotDims.lhsIdx
  rw [dif_neg (show ¬(0 : Fin S2000x256.rank) ∈ dot_S2000x256_S256x15_S2000x15_1_0_0_1_n_n.lhsBatch by decide), dif_pos (show (0 : Fin S2000x256.rank) ∈ dot_S2000x256_S256x15_S2000x15_1_0_0_1_n_n.lhsNonContracting by decide)]
  rfl
theorem lhs_1 (i : S2000x15.Idx) (q : dot_S2000x256_S256x15_S2000x15_1_0_0_1_n_n.contr.Idx) :
    (dot_S2000x256_S256x15_S2000x15_1_0_0_1_n_n.lhsIdx i q 1).val = (q ⟨0, by decide⟩).val :=
  dot_S2000x256_S256x15_S2000x15_1_0_0_1_n_n.lhsIdx_val_of_single rfl i q
theorem rhs_0 (i : S2000x15.Idx) (q : dot_S2000x256_S256x15_S2000x15_1_0_0_1_n_n.contr.Idx) :
    (dot_S2000x256_S256x15_S2000x15_1_0_0_1_n_n.rhsIdx i q 0).val = (q ⟨0, by decide⟩).val :=
  dot_S2000x256_S256x15_S2000x15_1_0_0_1_n_n.rhsIdx_val_of_single rfl i q
theorem rhs_1 (i : S2000x15.Idx) (q : dot_S2000x256_S256x15_S2000x15_1_0_0_1_n_n.contr.Idx) :
    (dot_S2000x256_S256x15_S2000x15_1_0_0_1_n_n.rhsIdx i q 1).val = (i 1).val := by
  unfold DotDims.rhsIdx
  rw [dif_neg (show ¬(1 : Fin S256x15.rank) ∈ dot_S2000x256_S256x15_S2000x15_1_0_0_1_n_n.rhsBatch by decide), dif_pos (show (1 : Fin S256x15.rank) ∈ dot_S2000x256_S256x15_S2000x15_1_0_0_1_n_n.rhsNonContracting by decide)]
  rfl

/-- Entry (p, q) of the product of a [2000,256] block and a [256,15] matrix into the zero accumulator is
    the sum over k of the block's (p, k) times the matrix's (k, q). -/
theorem mm_at {φ₁ φ₂ : FTy} (y0 : FVec Ideal S2000x256 φ₁) (y1 : FVec Ideal S256x15 φ₂) (p : Fin 2000) (q : Fin 15) :
    FloatOps.matmul dot_S2000x256_S256x15_S2000x15_1_0_0_1_n_n none y0 y1 (constant S2000x15 .f32 0x00000000#32) (ValueIdx.ix2 p q)
      = ∑ k : Fin 256, y0 (ValueIdx.ix2 p k) * y1 (ValueIdx.ix2 k q) := by
  rw [Ideal.matmul_constant_zero_apply, ← Equiv.sum_comp (ValueIdx.contrEquiv1 dot_S2000x256_S256x15_S2000x15_1_0_0_1_n_n 256 rfl rfl).symm]
  refine Finset.sum_congr rfl fun k _ => ?_
  have hk := ValueIdx.contrEquiv1_symm_val dot_S2000x256_S256x15_S2000x15_1_0_0_1_n_n 256 rfl rfl k
  have el : dot_S2000x256_S256x15_S2000x15_1_0_0_1_n_n.lhsIdx (ValueIdx.ix2 p q) ((ValueIdx.contrEquiv1 dot_S2000x256_S256x15_S2000x15_1_0_0_1_n_n 256 rfl rfl).symm k) = ValueIdx.ix2 p k := funext fun a => Fin.ext (by
    match a with
    | ⟨0, _⟩ => exact lhs_0 _ _
    | ⟨1, _⟩ => exact (lhs_1 _ _).trans hk)
  have er : dot_S2000x256_S256x15_S2000x15_1_0_0_1_n_n.rhsIdx (ValueIdx.ix2 p q) ((ValueIdx.contrEquiv1 dot_S2000x256_S256x15_S2000x15_1_0_0_1_n_n 256 rfl rfl).symm k) = ValueIdx.ix2 k q := funext fun a => Fin.ext (by
    match a with
    | ⟨0, _⟩ => exact (rhs_0 _ _).trans hk
    | ⟨1, _⟩ => exact rhs_1 _ _)
  rw [el, er]

/-- The body's payload at entry (p, q): the contraction of the loaded block's row p with the weight's column q,
    plus the bias row at q. The two roundings to the narrower format and the two same-shape casts are the
    identity on the extended reals. -/
theorem pay_at (x0 : Vec Ideal S2000x256 .f32) (x1 : Vec Ideal S256x15 .f32) (x2 : Vec Ideal S1x15 .f32) (p : Fin 2000) (q : Fin 15) :
    k3_pay1 (F := Ideal) x0 x1 x2 (ValueIdx.ix2 p q)
      = (∑ k : Fin 256, x0 (ValueIdx.ix2 p k) * x1 (ValueIdx.ix2 k q)) + x2 (ValueIdx.ix2 (0 : Fin 1) q) := by
  unfold k3_pay1
  simp only [shapeCast_self]
  rw [ValueIdx.addf_apply, ValueIdx.broadcastTo_1b_ab_apply]
  simp only [matmul]
  rw [mm_at]
  rfl

theorem pay_eq (x0 : Vec Ideal S2000x256 .f32) (x1 : Vec Ideal S256x15 .f32) (x2 : Vec Ideal S1x15 .f32) :
    k3_pay1 (F := Ideal) x0 x1 x2 = Cert.SageNet.finalK x0 x1 x2 := by
  funext j
  rw [ValueIdx.eq_ix2 j]
  exact pay_at x0 x1 x2 (j 0) (j 1)

/-! ## The windows' blocks at a point -/

theorem hz : (![0, 0] : Fin 2 → Nat) = fun _ => 0 := funext fun a => by fin_cases a <;> rfl

/-- The index maps over the 25 points: the row-block windows (0 and 3) sit at row-block t, column-block 0;
    the weight and the bias windows sit at block (0, 0) at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt25 (t : Fin cfg3.N) : t.val < 25 := lt_of_lt_of_eq t.isLt N_3

section AtEntry

variable (V : (c : Dev nD) → (b : Ref sig .tc) → Buf (Elt Ideal) ((c : Thread nD τ).loc b)) (c : Dev nD)

/-- Window 0's block at point t, entry (p, k), is the hidden state's entry (2000·t + p, k). -/
theorem iblk0_at (t : Fin cfg3.N) (p : Fin 2000) (k : Fin 256) :
    (iblk3 V c 0 t : Vec Ideal S2000x256 .f32) (ValueIdx.ix2 p k)
      = V c main_v54 (ValueIdx.ix2 (⟨t.val * 2000 + p.val, by have := lt25 t; have := p.isLt; omega⟩ : Fin 50000) k) := by
  obtain ⟨e0, e1, -⟩ := idx_facts t
  unfold iblk3
  rw [View.read_apply]
  show V c main_v54 _ = V c main_v54 _
  congr 1
  funext a
  apply Fin.ext
  match a with
  | ⟨0, _⟩ => show win3_0.index t 0 * 2000 + 1 * p.val = t.val * 2000 + p.val; rw [e0]; omega
  | ⟨1, _⟩ => show win3_0.index t 1 * 256 + 1 * k.val = k.val; rw [e1]; omega

/-- Window 1's block at every point is the whole weight matrix. -/
theorem iblk1_eq (t : Fin cfg3.N) : (iblk3 V c 1 t : Vec Ideal S256x15 .f32) = V c main_arg11 := by
  obtain ⟨-, -, e0, e1, -⟩ := idx_facts t
  funext j
  unfold iblk3
  rw [View.read_apply]
  show V c main_arg11 _ = V c main_arg11 _
  congr 1
  funext a
  apply Fin.ext
  match a with
  | ⟨0, _⟩ => show win3_1.index t 0 * 256 + 1 * (j 0).val = (j 0).val; rw [e0]; omega
  | ⟨1, _⟩ => show win3_1.index t 1 * 15 + 1 * (j 1).val = (j 1).val; rw [e1]; omega

/-- Window 2's block at every point is the whole bias row. -/
theorem iblk2_eq (t : Fin cfg3.N) : (iblk3 V c 2 t : Vec Ideal S1x15 .f32) = V c main_v55 := by
  obtain ⟨-, -, -, -, e0, e1, -⟩ := idx_facts t
  funext j
  unfold iblk3
  rw [View.read_apply]
  show V c main_v55 _ = V c main_v55 _
  congr 1
  funext a
  apply Fin.ext
  match a with
  | ⟨0, _⟩ => show win3_2.index t 0 * 1 + 1 * (j 0).val = (j 0).val; rw [e0]; omega
  | ⟨1, _⟩ => show win3_2.index t 1 * 15 + 1 * (j 1).val = (j 1).val; rw [e1]; omega

/-- A [2000,15] block H is the output window's block t of an array G when H's entry (p, q) is G's entry
    (2000·t + p, q): the block's rows are the array's rows 2000·t … 2000·t + 1999, its columns the array's. -/
theorem eq_read_blk3 (t : Fin cfg3.N) (G : S50000x15.Idx → EReal) (H : S2000x15.Idx → EReal)
    (h : ∀ (p : Fin 2000) (q : Fin 15), H (ValueIdx.ix2 p q)
      = G (ValueIdx.ix2 (⟨t.val * 2000 + p.val, by have := lt25 t; have := p.isLt; omega⟩ : Fin 50000) q)) :
    H = ((cfg3.win 3).blk t).view.read (Elt Ideal) G := by
  obtain ⟨-, -, -, -, -, -, e0, e1⟩ := idx_facts t
  funext j
  rw [View.read_apply, ValueIdx.eq_ix2 j]
  refine (h (j 0) (j 1)).trans (congrArg G ?_)
  funext a
  apply Fin.ext
  match a with
  | ⟨0, _⟩ => show t.val * 2000 + (j 0).val = win3_3.index t 0 * 2000 + 1 * (j 0).val; rw [e0]; omega
  | ⟨1, _⟩ => show (j 1).val = win3_3.index t 1 * 15 + 1 * (j 1).val; rw [e1]; omega

/-! ## What a point writes back -/

/-- Point t writes back block t of the last layer's result on the arrays found at entry. -/
theorem flushed_eq (t : Fin cfg3.N) :
    (dat3 (F := Ideal) V c).flushed 3 t
      = ((cfg3.win 3).blk t).view.read (Elt Ideal) (Cert.SageNet.finalK (V c main_v54) (V c main_arg11) (V c main_v55)) := by
  show (cfg3.win 3).cut (grid3.coords t) ((dat3 V c).after 3 t) = _
  rw [after3_3]
  unfold out3_3
  rw [View.canon_unit_zero hz]
  simp only [View.ld_unit_zero (S := S2000x256) hz, View.ld_unit_zero (S := S256x15) hz, View.ld_unit_zero (S := S1x15) hz]
  rw [pay_eq, iblk1_eq, iblk2_eq]
  refine eq_read_blk3 t _ _ fun p q => ?_
  show Cert.SageNet.finalK (iblk3 V c 0 t) (V c main_arg11) (V c main_v55) (ValueIdx.ix2 p q) = _
  rw [Cert.SageNet.finalK_apply, Cert.SageNet.finalK_apply]
  simp only [iblk0_at]

/-! ## The blocks tile the array -/

/-- An index of the array is in point t's block iff each coordinate is in the block's range on its axis. -/
theorem mem_blk (t : Fin cfg3.N) (i : S50000x15.Idx) :
    i ∈ ((cfg3.win 3).blk t).view.set ↔ ∀ a : Fin 2, win3_3.index t a * S2000x15.size a ≤ (i a).val ∧ (i a).val < win3_3.index t a * S2000x15.size a + S2000x15.size a := by
  show i ∈ ((View.whole main_v56).slice (win3_3.rect t)).set ↔ _
  rw [View.set_slice_whole, Rect.mem_set_unit]
  exact Iff.rfl

/-- Row i of the array lies in the block of point i / 2000, and every point writes back. -/
theorem cover (i : S50000x15.Idx) : ∃ t : Fin cfg3.N, (cfg3.win 3).flush t = true ∧ i ∈ ((cfg3.win 3).blk t).view.set := by
  have hi0 : (i 0).val < 50000 := (i 0).isLt
  have hi1 : (i 1).val < 15 := (i 1).isLt
  have ht : (i 0).val / 2000 < cfg3.N := lt_of_lt_of_eq (show (i 0).val / 2000 < 25 by omega) N_3.symm
  obtain ⟨-, -, -, -, -, -, e0, e1⟩ := idx_facts ⟨(i 0).val / 2000, ht⟩
  refine ⟨⟨(i 0).val / 2000, ht⟩, flush3_3 _, ?_⟩
  rw [mem_blk]
  intro a
  match a with
  | ⟨0, _⟩ =>
    show win3_3.index ⟨(i 0).val / 2000, ht⟩ 0 * 2000 ≤ (i 0).val ∧ (i 0).val < win3_3.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win3_3.index ⟨(i 0).val / 2000, ht⟩ 1 * 15 ≤ (i 1).val ∧ (i 1).val < win3_3.index ⟨(i 0).val / 2000, ht⟩ 1 * 15 + 15
    rw [e1]
    omega

end AtEntry

/-- Region 3 leaves in its output array the last linear layer of the arrays it finds at entry, whatever they are. -/
theorem final (V : (c : Dev nD) → (b : Ref sig .tc) → Buf (Elt Ideal) ((c : Thread nD τ).loc b)) (c : Dev nD) :
    (dat3 (F := Ideal) V c).arrAt 3 cfg3.N
      = Cert.SageNet.finalK (V c main_v54) (V c main_arg11) (V c main_v55) :=
  (dat3 V c).arrAt_eq_of_cover 3 _ (fun t _ => flushed_eq V c t) cover

end Cert.KernelIdeal.Blk3
end
-- ==== Proof.HostRead1.lean ====
/- What the device's buffers hold where the first two tiled regions begin, as functions of the launch arrays.

   Between the launch and the first region the program computes, from the edge list, the source row, the
   destination row and the one-over-count column, and from the node features the mean of each node's
   in-neighbours' rows; it re-lays the first bias vector as a one-row matrix.  Between the first and the second
   region it forms the same mean of the first region's output and re-lays the second bias vector.  Each theorem
   reads one buffer at a region's entry: an operation's result at its own buffer is its function applied to
   what its operand buffers held, and a buffer that no operation of a stretch writes, and that is none of a
   region's arrays, holds what it held before. -/
import proofs.«149804_j68436008895103_1_alg».proof.Proof.Gen.KernelIdeal.Frame
import proofs.«149804_j68436008895103_1_alg».proof.Proof.KHostDefs
import Idealize.ShloMosaic.PureOps.Ideal

set_option maxRecDepth 16384

noncomputable section

namespace Cert.KernelIdeal.HostRead1

open Cert.KernelIdeal Cert.KernelIdeal.Gen Cert.KernelIdeal.HostVal Idealize.ShloMosaic Idealize.ShloMosaic.TcCoe Idealize.SL.Sem

variable (m : (ℓ : Loc nD τ sig) → Buf (Elt Ideal) ℓ) (ρ : Dev nD → PrngReg) (c : Dev nD)

/-- A stretch of operations leaves alone a buffer that none of them writes: each operation writes exactly its
    result buffer, and the buffer in question differs from every one of those. -/
local macro "stretch_leaves" h:ident : tactic =>
  `(tactic|
    exact StableHlo.after_of_forall_not_mem _ _ (List.forall_iff_forall_mem.mp (by
      simp only [$h:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## Before the first region -/

/-- The first stretch writes no argument; the launch memory is read as it is. -/
theorem W1_arg0 : W1 m ρ c (Proc.devRef .tc main_arg0) = m ((c : Thread nD τ).loc main_arg0) :=
  calc W1 m ρ c (Proc.devRef .tc main_arg0)
    _ = W0 m ρ c (Proc.devRef .tc main_arg0) := by stretch_leaves hostOps0
    _ = m ((c : Thread nD τ).loc main_arg0) := rfl

theorem W1_arg2 : W1 m ρ c (Proc.devRef .tc main_arg2) = m ((c : Thread nD τ).loc main_arg2) :=
  calc W1 m ρ c (Proc.devRef .tc main_arg2)
    _ = W0 m ρ c (Proc.devRef .tc main_arg2) := by stretch_leaves hostOps0
    _ = m ((c : Thread nD τ).loc main_arg2) := rfl

theorem W1_arg4 : W1 m ρ c (Proc.devRef .tc main_arg4) = m ((c : Thread nD τ).loc main_arg4) :=
  calc W1 m ρ c (Proc.devRef .tc main_arg4)
    _ = W0 m ρ c (Proc.devRef .tc main_arg4) := by stretch_leaves hostOps0
    _ = m ((c : Thread nD τ).loc main_arg4) := rfl

/-- The mean of the in-neighbours' feature rows: the last product of the first stretch, every operand traced
    back through the stretch to the feature matrix and the edge list. -/
theorem W1_v24 : W1 m ρ c (Proc.devRef .tc main_v24) = meanRows128 (F := Ideal) (m ((c : Thread nD τ).loc main_arg0)) (m ((c : Thread nD τ).loc main_arg1)) := by
  show StableHlo.after hostOps0 (W0 m ρ c) (Proc.devRef .tc main_v24) = _
  after_results_simp
  rfl

/-- The first bias vector re-laid as one row. -/
theorem W1_v25 : W1 m ρ c (Proc.devRef .tc main_v25) = biasRow256 (F := Ideal) (m ((c : Thread nD τ).loc main_arg3)) := by
  show StableHlo.after hostOps0 (W0 m ρ c) (Proc.devRef .tc main_v25) = _
  after_results_simp
  rfl

/-! ## What the first stretch computed once and the second stretch reads again

The source row, the destination row and the one-over-count column are written in the first stretch only; the
first region has none of them among its arrays, so at its exit they hold what they held at its entry. -/

private theorem W1_v1 : W1 m ρ c (Proc.devRef .tc main_v1) = srcRow (F := Ideal) (m ((c : Thread nD τ).loc main_arg1)) := by
  show StableHlo.after hostOps0 (W0 m ρ c) (Proc.devRef .tc main_v1) = _
  after_results_simp
  rfl

private theorem W1_v3 : W1 m ρ c (Proc.devRef .tc main_v3) = dstRow (F := Ideal) (m ((c : Thread nD τ).loc main_arg1)) := by
  show StableHlo.after hostOps0 (W0 m ρ c) (Proc.devRef .tc main_v3) = _
  after_results_simp
  rfl

private theorem W1_v12 : W1 m ρ c (Proc.devRef .tc main_v12) = invCol (F := Ideal) (m ((c : Thread nD τ).loc main_arg1)) := by
  show StableHlo.after hostOps0 (W0 m ρ c) (Proc.devRef .tc main_v12) = _
  after_results_simp
  rfl

private theorem W2_v1 : W2 m ρ c (Proc.devRef .tc main_v1) = srcRow (F := Ideal) (m ((c : Thread nD τ).loc main_arg1)) :=
  (W2_of_ne m ρ c main_v1 (by decide)).trans (W1_v1 m ρ c)

private theorem W2_v3 : W2 m ρ c (Proc.devRef .tc main_v3) = dstRow (F := Ideal) (m ((c : Thread nD τ).loc main_arg1)) :=
  (W2_of_ne m ρ c main_v3 (by decide)).trans (W1_v3 m ρ c)

private theorem W2_v12 : W2 m ρ c (Proc.devRef .tc main_v12) = invCol (F := Ideal) (m ((c : Thread nD τ).loc main_arg1)) :=
  (W2_of_ne m ρ c main_v12 (by decide)).trans (W1_v12 m ρ c)

/-- The second bias vector is no array of the first region and is written by neither stretch. -/
private theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by stretch_leaves hostOps0
    _ = m ((c : Thread nD τ).loc main_arg6) := rfl

/-! ## Before the second region -/

/-- The second stretch does not write the first region's output. -/
theorem W3_v26 : W3 m ρ c (Proc.devRef .tc main_v26) = W2 m ρ c (Proc.devRef .tc main_v26) := by
  stretch_leaves hostOps1

/-- The second stretch's last product over ANY contents at its entry: where the entry holds the source row, the
    destination row and the one-over-count column of an edge list, the product is the mean of the in-neighbours'
    rows of whatever the entry holds at the first region's output. -/
private theorem after1_v38 (V : Valuation τ sig (Elt Ideal)) (e : (⟨S2x800000, .i32⟩ : BufTy).Contents (Elt Ideal))
    (h1 : V (Proc.devRef .tc main_v1) = srcRow (F := Ideal) e) (h3 : V (Proc.devRef .tc main_v3) = dstRow (F := Ideal) e)
    (h12 : V (Proc.devRef .tc main_v12) = invCol (F := Ideal) e) :
    StableHlo.after hostOps1 V (Proc.devRef .tc main_v38) = meanRows256 (F := Ideal) (V (Proc.devRef .tc main_v26)) e := by
  after_results_simp
  rw [h1, h3, h12]
  rfl

/-- The mean of the in-neighbours' rows of the first region's output: the index and count operands of the
    second stretch are those the first stretch left. -/
theorem W3_v38 : W3 m ρ c (Proc.devRef .tc main_v38) = meanRows256 (F := Ideal) (W2 m ρ c (Proc.devRef .tc main_v26)) (m ((c : Thread nD τ).loc main_arg1)) :=
  after1_v38 (W2 m ρ c) _ (W2_v1 m ρ c) (W2_v3 m ρ c) (W2_v12 m ρ c)

theorem W3_arg5 : W3 m ρ c (Proc.devRef .tc main_arg5) = m ((c : Thread nD τ).loc main_arg5) :=
  calc W3 m ρ c (Proc.devRef .tc main_arg5)
    _ = W2 m ρ c (Proc.devRef .tc main_arg5) := by stretch_leaves hostOps1
    _ = W1 m ρ c (Proc.devRef .tc main_arg5) := W2_of_ne m ρ c main_arg5 (by decide)
    _ = W0 m ρ c (Proc.devRef .tc main_arg5) := by stretch_leaves hostOps0
    _ = m ((c : Thread nD τ).loc main_arg5) := rfl

/-- The second stretch's reshape over any contents at its entry. -/
private theorem after1_v39 (V : Valuation τ sig (Elt Ideal)) :
    StableHlo.after hostOps1 V (Proc.devRef .tc main_v39) = biasRow256 (F := Ideal) (V (Proc.devRef .tc main_arg6)) := by
  after_results_simp
  rfl

/-- The second bias vector re-laid as one row. -/
theorem W3_v39 : W3 m ρ c (Proc.devRef .tc main_v39) = biasRow256 (F := Ideal) (m ((c : Thread nD τ).loc main_arg6)) :=
  (after1_v39 (W2 m ρ c)).trans (congrArg (biasRow256 (F := Ideal)) (W2_arg6 m ρ c))

theorem W3_arg7 : W3 m ρ c (Proc.devRef .tc main_arg7) = m ((c : Thread nD τ).loc main_arg7) :=
  calc W3 m ρ c (Proc.devRef .tc main_arg7)
    _ = W2 m ρ c (Proc.devRef .tc main_arg7) := by stretch_leaves hostOps1
    _ = W1 m ρ c (Proc.devRef .tc main_arg7) := W2_of_ne m ρ c main_arg7 (by decide)
    _ = W0 m ρ c (Proc.devRef .tc main_arg7) := by stretch_leaves hostOps0
    _ = m ((c : Thread nD τ).loc main_arg7) := rfl

end Cert.KernelIdeal.HostRead1

end
-- ==== Proof.HostRead2.lean ====
/- What the two later stretches of host operations leave at the buffers the third and fourth tiled regions stage.

   Between the regions the program recomputes, from the edge list, the gather and scatter index columns and
   multiplies the scattered sum by the one-over-count column.  The source row, the destination row and the
   one-over-count column are computed once, before the first region; no region and no later host operation
   writes them, so at every later boundary they are still the functions of the launch edge list that the first
   stretch computed.  An argument array that no host operation writes and no earlier region owns is still the
   launch array.  With these, the mean the third stretch forms is `meanRows256` of the second region's output
   and the launch edge list, and each bias row is the reshape of its launch vector. -/
import proofs.«149804_j68436008895103_1_alg».proof.Proof.Gen.KernelIdeal.Frame
import proofs.«149804_j68436008895103_1_alg».proof.Proof.KHostDefs
import Idealize.ShloMosaic.PureOps.Ideal

set_option maxRecDepth 16384

noncomputable section

namespace Cert.KernelIdeal.HostRead2

open Cert.KernelIdeal Cert.KernelIdeal.Gen Cert.KernelIdeal.HostVal Idealize.ShloMosaic Idealize.ShloMosaic.TcCoe Idealize.SL.Sem

variable (m : (ℓ : Loc nD τ sig) → Buf (Elt Ideal) ℓ) (ρ : Dev nD → PrngReg) (c : Dev nD)

/-- Closes `after ops V b = V b` for a literal list `ops` none of whose operations writes `b`: every operation
    writes exactly its result buffer, and that buffer is a different reference. -/
local macro "host_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The three buffers of the first stretch that the later stretches read again -/

/-- The source row: row 0 of the launch edge list. -/
private theorem W1_v1 : W1 m ρ c (Proc.devRef .tc main_v1) = srcRow (F := Ideal) (m ((c : Thread nD τ).loc main_arg1)) := by
  show StableHlo.after hostOps0 (W0 m ρ c) (Proc.devRef .tc main_v1) = _
  after_results_simp
  rfl

/-- The destination row: row 1 of the launch edge list. -/
private theorem W1_v3 : W1 m ρ c (Proc.devRef .tc main_v3) = dstRow (F := Ideal) (m ((c : Thread nD τ).loc main_arg1)) := by
  show StableHlo.after hostOps0 (W0 m ρ c) (Proc.devRef .tc main_v3) = _
  after_results_simp
  rfl

/-- One over each node's count of incoming edges, as a column. -/
private theorem W1_v12 : W1 m ρ c (Proc.devRef .tc main_v12) = invCol (F := Ideal) (m ((c : Thread nD τ).loc main_arg1)) := by
  show StableHlo.after hostOps0 (W0 m ρ c) (Proc.devRef .tc main_v12) = _
  after_results_simp
  rfl

/-- The first region's arrays are other buffers, so at its exit the three are as at its entry. -/
private theorem W2_v1 : W2 m ρ c (Proc.devRef .tc main_v1) = srcRow (F := Ideal) (m ((c : Thread nD τ).loc main_arg1)) :=
  (W2_of_ne m ρ c main_v1 (by decide)).trans (W1_v1 m ρ c)
private theorem W2_v3 : W2 m ρ c (Proc.devRef .tc main_v3) = dstRow (F := Ideal) (m ((c : Thread nD τ).loc main_arg1)) :=
  (W2_of_ne m ρ c main_v3 (by decide)).trans (W1_v3 m ρ c)
private theorem W2_v12 : W2 m ρ c (Proc.devRef .tc main_v12) = invCol (F := Ideal) (m ((c : Thread nD τ).loc main_arg1)) :=
  (W2_of_ne m ρ c main_v12 (by decide)).trans (W1_v12 m ρ c)

/-- The second stretch reads the three and writes none of them. -/
private theorem W3_v1 : W3 m ρ c (Proc.devRef .tc main_v1) = srcRow (F := Ideal) (m ((c : Thread nD τ).loc main_arg1)) := by
  refine Eq.trans ?_ (W2_v1 m ρ c)
  show StableHlo.after hostOps1 (W2 m ρ c) (Proc.devRef .tc main_v1) = _
  host_keeps hostOps1
private theorem W3_v3 : W3 m ρ c (Proc.devRef .tc main_v3) = dstRow (F := Ideal) (m ((c : Thread nD τ).loc main_arg1)) := by
  refine Eq.trans ?_ (W2_v3 m ρ c)
  show StableHlo.after hostOps1 (W2 m ρ c) (Proc.devRef .tc main_v3) = _
  host_keeps hostOps1
private theorem W3_v12 : W3 m ρ c (Proc.devRef .tc main_v12) = invCol (F := Ideal) (m ((c : Thread nD τ).loc main_arg1)) := by
  refine Eq.trans ?_ (W2_v12 m ρ c)
  show StableHlo.after hostOps1 (W2 m ρ c) (Proc.devRef .tc main_v12) = _
  host_keeps hostOps1

/-- The second region's arrays are other buffers again. -/
private theorem W4_v1 : W4 m ρ c (Proc.devRef .tc main_v1) = srcRow (F := Ideal) (m ((c : Thread nD τ).loc main_arg1)) :=
  (W4_of_ne m ρ c main_v1 (by decide)).trans (W3_v1 m ρ c)
private theorem W4_v3 : W4 m ρ c (Proc.devRef .tc main_v3) = dstRow (F := Ideal) (m ((c : Thread nD τ).loc main_arg1)) :=
  (W4_of_ne m ρ c main_v3 (by decide)).trans (W3_v3 m ρ c)
private theorem W4_v12 : W4 m ρ c (Proc.devRef .tc main_v12) = invCol (F := Ideal) (m ((c : Thread nD τ).loc main_arg1)) :=
  (W4_of_ne m ρ c main_v12 (by decide)).trans (W3_v12 m ρ c)

/-! ## Argument arrays that nothing before the third region touches -/

/-- No host operation of the first two stretches writes the argument, and it is not an array of the first two
    regions: at the second region's exit it is the launch array. -/
local macro "arg_at_W4" a:ident : tactic =>
  `(tactic| (refine (W4_of_ne m ρ c $a (by decide)).trans ?_
             refine Eq.trans (b := W2 m ρ c (Proc.devRef .tc $a)) ?_ ?_
             · show StableHlo.after hostOps1 (W2 m ρ c) (Proc.devRef .tc $a) = _
               host_keeps hostOps1
             refine (W2_of_ne m ρ c $a (by decide)).trans ?_
             refine Eq.trans (b := W0 m ρ c (Proc.devRef .tc $a)) ?_ rfl
             show StableHlo.after hostOps0 (W0 m ρ c) (Proc.devRef .tc $a) = _
             host_keeps hostOps0))

private theorem W4_arg8 : W4 m ρ c (Proc.devRef .tc main_arg8) = m ((c : Thread nD τ).loc main_arg8) := by arg_at_W4 main_arg8
private theorem W4_arg9 : W4 m ρ c (Proc.devRef .tc main_arg9) = m ((c : Thread nD τ).loc main_arg9) := by arg_at_W4 main_arg9
private theorem W4_arg10 : W4 m ρ c (Proc.devRef .tc main_arg10) = m ((c : Thread nD τ).loc main_arg10) := by arg_at_W4 main_arg10
private theorem W4_arg11 : W4 m ρ c (Proc.devRef .tc main_arg11) = m ((c : Thread nD τ).loc main_arg11) := by arg_at_W4 main_arg11
private theorem W4_arg12 : W4 m ρ c (Proc.devRef .tc main_arg12) = m ((c : Thread nD τ).loc main_arg12) := by arg_at_W4 main_arg12

/-! ## The third region's entry -/

/-- The mean of the in-neighbours' rows of the second region's output: the third stretch gathers the source
    node's row per edge, adds it in at the destination row, and multiplies by one over the count. -/
theorem W5_v52 : W5 m ρ c (Proc.devRef .tc main_v52) = meanRows256 (F := Ideal) (W4 m ρ c (Proc.devRef .tc main_v40)) (m ((c : Thread nD τ).loc main_arg1)) := by
  show StableHlo.after hostOps2 (W4 m ρ c) (Proc.devRef .tc main_v52) = _
  have h1 := W4_v1 m ρ c
  have h3 := W4_v3 m ρ c
  have h12 := W4_v12 m ρ c
  -- the stretch's operations act on whatever the buffers hold: name the contents at its start
  generalize W4 m ρ c = V at h1 h3 h12 ⊢
  after_results_simp
  rw [h1, h3, h12]
  rfl

/-- The third stretch does not write the second region's output. -/
theorem W5_v40 : W5 m ρ c (Proc.devRef .tc main_v40) = W4 m ρ c (Proc.devRef .tc main_v40) := by
  show StableHlo.after hostOps2 (W4 m ρ c) (Proc.devRef .tc main_v40) = _
  host_keeps hostOps2

theorem W5_arg8 : W5 m ρ c (Proc.devRef .tc main_arg8) = m ((c : Thread nD τ).loc main_arg8) := by
  refine Eq.trans ?_ (W4_arg8 m ρ c)
  show StableHlo.after hostOps2 (W4 m ρ c) (Proc.devRef .tc main_arg8) = _
  host_keeps hostOps2

/-- The bias row: the third stretch's reshape of the launch bias vector. -/
theorem W5_v53 : W5 m ρ c (Proc.devRef .tc main_v53) = biasRow256 (F := Ideal) (m ((c : Thread nD τ).loc main_arg9)) := by
  show StableHlo.after hostOps2 (W4 m ρ c) (Proc.devRef .tc main_v53) = _
  after_results
  rw [W4_arg9]
  rfl

theorem W5_arg10 : W5 m ρ c (Proc.devRef .tc main_arg10) = m ((c : Thread nD τ).loc main_arg10) := by
  refine Eq.trans ?_ (W4_arg10 m ρ c)
  show StableHlo.after hostOps2 (W4 m ρ c) (Proc.devRef .tc main_arg10) = _
  host_keeps hostOps2

/-! ## The fourth region's entry -/

/-- An argument the third stretch does not write and the third region does not own is, at that region's exit,
    what it was at the second region's exit. -/
local macro "W6_to_W4" a:ident : tactic =>
  `(tactic| (refine (W6_of_ne m ρ c $a (by decide)).trans ?_
             show StableHlo.after hostOps2 (W4 m ρ c) (Proc.devRef .tc $a) = _
             host_keeps hostOps2))

private theorem W6_arg11 : W6 m ρ c (Proc.devRef .tc main_arg11) = m ((c : Thread nD τ).loc main_arg11) := by
  refine Eq.trans ?_ (W4_arg11 m ρ c)
  W6_to_W4 main_arg11
private theorem W6_arg12 : W6 m ρ c (Proc.devRef .tc main_arg12) = m ((c : Thread nD τ).loc main_arg12) := by
  refine Eq.trans ?_ (W4_arg12 m ρ c)
  W6_to_W4 main_arg12

/-- The last stretch is one reshape; it does not write the third region's output. -/
theorem W7_v54 : W7 m ρ c (Proc.devRef .tc main_v54) = W6 m ρ c (Proc.devRef .tc main_v54) := by
  show StableHlo.after hostOps3 (W6 m ρ c) (Proc.devRef .tc main_v54) = _
  host_keeps hostOps3

theorem W7_arg11 : W7 m ρ c (Proc.devRef .tc main_arg11) = m ((c : Thread nD τ).loc main_arg11) := by
  refine Eq.trans ?_ (W6_arg11 m ρ c)
  show StableHlo.after hostOps3 (W6 m ρ c) (Proc.devRef .tc main_arg11) = _
  host_keeps hostOps3

/-- The 15-entry bias row: the last stretch's reshape of the launch bias vector. -/
theorem W7_v55 : W7 m ρ c (Proc.devRef .tc main_v55) = biasRow15 (F := Ideal) (m ((c : Thread nD τ).loc main_arg12)) := by
  show StableHlo.after hostOps3 (W6 m ρ c) (Proc.devRef .tc main_v55) = _
  after_results
  rw [W6_arg12]
  rfl

end Cert.KernelIdeal.HostRead2

end
-- ==== Proof.LibMeanLaw.lean ====
/- The one law of the extended reals this certificate rests on.

   The tiled program forms a node's neighbour mean as  (sum of rows) * (1 / max(cnt, 1)),  the plain program as
   (sum of rows) / max(cnt, 1),  where cnt is the node's number of incoming edges.  On the extended reals a
   quotient by a divisor other than zero is the product with the divisor's inverse, so  a * (1 / c) = a / c
   whenever  c ≠ 0;  and  max(x, 1)  is never zero, whatever extended real x is, because it is at least 1.
   Nothing about the count itself is needed: not that it is finite, nor that it is a whole number.  The same
   holds entry by entry for a matrix whose row p is scaled by the p-th entry of a vector laid out as a column and
   spread over the columns, which is how both programs lay the divisor out. -/
import Idealize.ShloMosaic.PureOps.Ideal
import Idealize.ShloMosaic.Lib.IdealHost

noncomputable section

namespace Cert.MeanLaw

open Idealize.ShloMosaic

/-- A product with the reciprocal of a divisor other than zero is the quotient by it. -/
theorem mul_div_one (a c : EReal) (hc : c ≠ 0) : a * Ideal.div 1 c = Ideal.div a c := by
  unfold Ideal.div
  rw [if_neg hc, if_neg hc, one_mul]

/-- The larger of any extended real and one is not zero. -/
theorem max_one_ne_zero (x : EReal) : max x 1 ≠ 0 :=
  ne_of_gt (lt_of_lt_of_le zero_lt_one (le_max_right x 1))

/-- Entry by entry: scaling by the reciprocal of the larger of `x` and one is dividing by it. -/
theorem mul_div_max_one (a x : EReal) : a * Ideal.div 1 (max x 1) = Ideal.div a (max x 1) :=
  mul_div_one a _ (max_one_ne_zero x)

/-- The same for whole arrays as the two programs lay them out: `S` times the spread-out reciprocal of
    `max(A, 1)` is `S` divided by the spread-out `max(A, 1)`.  The vector `A` (one entry per node) is first
    made a column, then spread over the columns of the matrix; the ones are a scalar spread over the vector. -/
theorem spread_mul_eq_div {s0 sN sN1 sM : Shape}
    (e0 : Fin s0.rank → Fin sN.rank) (h0 h0' : s0.BroadcastsInDim sN e0)
    (d1 : Fin sN.rank → Fin sN1.rank) (h1 : sN.BroadcastsInDim sN1 d1)
    (d2 : Fin sN1.rank → Fin sM.rank) (h2 : sN1.BroadcastsInDim sM d2)
    (S : FVec Ideal sM .f32) (A : FVec Ideal sN .f32) :
    mulf S (broadcastInDim sM d2 h2 (broadcastInDim sN1 d1 h1
        (Host.divf (broadcastInDim sN e0 h0 (constant (F := Ideal) s0 .f32 0x3F800000#32))
          (maximumf A (broadcastInDim sN e0 h0' (constant (F := Ideal) s0 .f32 0x3F800000#32))))))
      = Host.divf S (broadcastInDim sM d2 h2 (broadcastInDim sN1 d1 h1
          (maximumf A (broadcastInDim sN e0 h0' (constant (F := Ideal) s0 .f32 0x3F800000#32))))) := by
  funext j
  show S j * Ideal.div (Ideal.ofBits .f32 0x3F800000#32) (max (A _) (Ideal.ofBits .f32 0x3F800000#32))
    = Ideal.div (S j) (max (A _) (Ideal.ofBits .f32 0x3F800000#32))
  rw [Ideal.ofBits_one_f32]
  exact mul_div_max_one _ _

end Cert.MeanLaw

end
-- ==== Proof.Bridge1.lean ====
/- The first layer, the two programs side by side.

   Both programs compute  max((M·Wl + X·Wr) + b, 0)  with X the input feature rows and M the mean of each node's
   in-neighbours' rows.  They differ in two places.  The tiled program forms M as the neighbour sum times one over
   the count, the plain program as the neighbour sum divided by the count: equal by the law of LibMeanLaw, the count
   having been raised to at least one.  And the plain program adds the bias before the second product, the tiled
   one after it: equal because addition of extended reals is commutative and associative.  The neighbour sum and
   the count are the same gather and scatter-add of the same operands in both programs and are never opened. -/
import proofs.«149804_j68436008895103_1_alg».proof.Proof.Spec
import proofs.«149804_j68436008895103_1_alg».proof.Proof.KHostDefs
import proofs.«149804_j68436008895103_1_alg».proof.Proof.RefModules
import proofs.«149804_j68436008895103_1_alg».proof.Proof.LibMeanLaw
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.ReferenceIdeal Cert.ReferenceIdeal.Read

variable (x0 : (⟨S50000x128, .f32⟩ : BufTy).Contents (Elt Ideal)) (x1 : (⟨S2x800000, .i32⟩ : BufTy).Contents (Elt Ideal))
  (x2 x4 : (⟨S128x256, .f32⟩ : BufTy).Contents (Elt Ideal)) (x3 : (⟨S256, .f32⟩ : BufTy).Contents (Elt Ideal))

/-- The tiled program's neighbour mean of the input features is the plain program's. -/
theorem mean128 : Cert.KernelIdeal.HostVal.meanRows128 (F := Ideal) x0 x1 = val_main_v22 (F := Ideal) x0 x1 :=
  Cert.MeanLaw.spread_mul_eq_div (s0 := S_) (sN := S50000) (sN1 := S50000x1) (sM := S50000x128) ![] _ _ ![0] _ ![0, 1] _ _ _

/-- The bias laid out as one row, read at a column, is the bias vector's entry. -/
theorem biasRow256_apply (b : (⟨S256, .f32⟩ : BufTy).Contents (Elt Ideal)) (q : Fin 256) :
    Cert.KernelIdeal.HostVal.biasRow256 (F := Ideal) b (ix2 (0 : Fin 1) q) = b (ix1 q) := by
  unfold Cert.KernelIdeal.HostVal.biasRow256
  refine shapeCast_apply b _ _ (ix1 q) ?_
  rewrite [Shape.rowMajor_val_one, Shape.rowMajor_val_two]
  show q.val = 0 * 256 + q.val
  omega

/-- The first layer: the fused layer of the tiled program's mean is the plain program's first hidden state. -/
theorem layer1 :
    Cert.SageNet.fusedK (Cert.KernelIdeal.HostVal.meanRows128 (F := Ideal) x0 x1) x0 x2
        (Cert.KernelIdeal.HostVal.biasRow256 (F := Ideal) x3) x4
      = val_main_v29 (F := Ideal) x0 x1 x2 x3 x4 := by
  rw [mean128]
  funext i
  obtain ⟨p, q, rfl⟩ : ∃ (p : Fin 50000) (q : Fin 256), i = ix2 p q := ⟨i 0, i 1, eq_ix2 i⟩
  rw [Cert.SageNet.fusedK_apply, biasRow256_apply, val_main_v29_apply, val_main_v28_apply, val_main_v26_apply,
    val_main_v23_apply, val_main_v27_apply, val_main_v25_apply, val_main_v24_apply, val_main_call0_v0_apply,
    val_main_call0_cst_apply]
  have el : ∀ k : Fin 128, lidx_main_v23 (ix2 p q) k = ix2 p k := fun k => funext fun a => Fin.ext (by
    match a with
    | ⟨0, _⟩ => rfl
    | ⟨1, _⟩ => rfl)
  have er : ∀ k : Fin 128, ridx_main_v23 (ix2 p q) k = ix2 k q := fun k => funext fun a => Fin.ext (by
    match a with
    | ⟨0, _⟩ => rfl
    | ⟨1, _⟩ => rfl)
  have el' : ∀ k : Fin 128, lidx_main_v27 (ix2 p q) k = ix2 p k := fun k => funext fun a => Fin.ext (by
    match a with
    | ⟨0, _⟩ => rfl
    | ⟨1, _⟩ => rfl)
  have er' : ∀ k : Fin 128, ridx_main_v27 (ix2 p q) k = ix2 k q := fun k => funext fun a => Fin.ext (by
    match a with
    | ⟨0, _⟩ => rfl
    | ⟨1, _⟩ => rfl)
  have eb : idx_main_v24 (idx_main_v25 (ix2 p q)) = ix1 q := funext fun a => Fin.ext (by
    match a with
    | ⟨0, _⟩ => rfl)
  simp only [el, er, el', er', eb, Ideal.maximumf_def, Ideal.addf_def, Ideal.ofBits_def, Ideal.ofBits_zero_f32]
  rw [add_right_comm]

end Cert.Bridge

end
-- ==== Proof.Bridge2.lean ====
/- The second and third layers, and the last linear layer, the two programs side by side.

   A hidden layer is the same function of its incoming feature matrix h in both programs, up to the two
   differences of the first layer (product with the reciprocal against quotient; the place of the bias in the
   sum).  The plain program's layer is named here as one function of h, `refLayer256`; its second and third
   hidden states are that function of the state before.  The last layer  h·Wo + b  has no difference at all
   beyond the layout of the bias.  A product of matrices read at entry (p, q) is the sum over k of the left
   operand at (p, k) times the right at (k, q). -/
import proofs.«149804_j68436008895103_1_alg».proof.Proof.Spec
import proofs.«149804_j68436008895103_1_alg».proof.Proof.KHostDefs
import proofs.«149804_j68436008895103_1_alg».proof.Proof.RefModules
import proofs.«149804_j68436008895103_1_alg».proof.Proof.LibMeanLaw
import proofs.«149804_j68436008895103_1_alg».proof.Proof.Bridge1
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.ReferenceIdeal Cert.ReferenceIdeal.Read

variable (x0 : (⟨S50000x128, .f32⟩ : BufTy).Contents (Elt Ideal)) (x1 : (⟨S2x800000, .i32⟩ : BufTy).Contents (Elt Ideal))
  (x2 x4 : (⟨S128x256, .f32⟩ : BufTy).Contents (Elt Ideal)) (x3 : (⟨S256, .f32⟩ : BufTy).Contents (Elt Ideal))
  (x5 x7 x8 x10 : (⟨S256x256, .f32⟩ : BufTy).Contents (Elt Ideal)) (x6 x9 : (⟨S256, .f32⟩ : BufTy).Contents (Elt Ideal))
  (x11 : (⟨S256x15, .f32⟩ : BufTy).Contents (Elt Ideal)) (x12 : (⟨S15, .f32⟩ : BufTy).Contents (Elt Ideal))

/-- The plain program's mean of each node's in-neighbours' rows of `h`: the neighbour sum divided by the count. -/
def refMean256 (x1 : (⟨S2x800000, .i32⟩ : BufTy).Contents (Elt Ideal)) (h : (⟨S50000x256, .f32⟩ : BufTy).Contents (Elt Ideal)) : (⟨S50000x256, .f32⟩ : BufTy).Contents (Elt Ideal) :=
  Host.divf (F := Ideal) (φ := .f32) (Host.scatterAdd (F := Ideal) (φ := .f32) scatter_S50000x256_S800000x1_S800000x256_1_0_0_1 (val_main_v37 (F := Ideal)) (val_main_v38 (F := Ideal) x1)
    (Host.gather (α := Ideal .f32) gather_S50000x256_S800000x1_S800000x256_1_0_n_n_0_1_1256 h (val_main_v35 (F := Ideal) x1))) (val_main_v47 (F := Ideal) x1)

/-- The plain program's way of combining a mean `M` and the incoming features `h`:  max((M·Wl + b) + h·Wr, 0). -/
def refCombine (M : (⟨S50000x256, .f32⟩ : BufTy).Contents (Elt Ideal)) (h : (⟨S50000x256, .f32⟩ : BufTy).Contents (Elt Ideal)) (wl wr : (⟨S256x256, .f32⟩ : BufTy).Contents (Elt Ideal)) (b : (⟨S256, .f32⟩ : BufTy).Contents (Elt Ideal)) : (⟨S50000x256, .f32⟩ : BufTy).Contents (Elt Ideal) :=
  maximumf (F := Ideal) (addf (F := Ideal) (addf (F := Ideal) (Host.dotGeneral (F := Ideal) (φ₁ := .f32) (φ₂ := .f32) dot_S50000x256_S256x256_S50000x256_1_0_0_1_n_n none M wl) (val_main_v51 (F := Ideal) b))
    (Host.dotGeneral (F := Ideal) (φ₁ := .f32) (φ₂ := .f32) dot_S50000x256_S256x256_S50000x256_1_0_0_1_n_n none h wr)) (val_main_call1_v0 (F := Ideal))

/-- That combination read at an entry: the pointwise operations entry by entry. -/
theorem refCombine_apply (M : (⟨S50000x256, .f32⟩ : BufTy).Contents (Elt Ideal)) (h : (⟨S50000x256, .f32⟩ : BufTy).Contents (Elt Ideal)) (wl wr : (⟨S256x256, .f32⟩ : BufTy).Contents (Elt Ideal)) (b : (⟨S256, .f32⟩ : BufTy).Contents (Elt Ideal)) (i : S50000x256.Idx) :
    refCombine M h wl wr b i
      = FloatOps.maximumf (FloatOps.addf (FloatOps.addf
          (Host.dotGeneral (F := Ideal) (φ₁ := .f32) (φ₂ := .f32) dot_S50000x256_S256x256_S50000x256_1_0_0_1_n_n none M wl i) (val_main_v51 (F := Ideal) b i))
          (Host.dotGeneral (F := Ideal) (φ₁ := .f32) (φ₂ := .f32) dot_S50000x256_S256x256_S50000x256_1_0_0_1_n_n none h wr i)) (val_main_call1_v0 (F := Ideal) i) := rfl

/-- The plain program's hidden layer as a function of the incoming features: the combination of their neighbour
    mean with them. -/
def refLayer256 (x1 : (⟨S2x800000, .i32⟩ : BufTy).Contents (Elt Ideal)) (h : (⟨S50000x256, .f32⟩ : BufTy).Contents (Elt Ideal)) (wl wr : (⟨S256x256, .f32⟩ : BufTy).Contents (Elt Ideal)) (b : (⟨S256, .f32⟩ : BufTy).Contents (Elt Ideal)) : (⟨S50000x256, .f32⟩ : BufTy).Contents (Elt Ideal) :=
  refCombine (refMean256 x1 h) h wl wr b

/-- The plain program's second hidden state is that layer of its first. -/
theorem v55_eq : val_main_v55 (F := Ideal) x0 x1 x2 x3 x4 x5 x6 x7 = refLayer256 x1 (val_main_v29 (F := Ideal) x0 x1 x2 x3 x4) x5 x7 x6 := rfl

/-- The plain program's third hidden state is that layer of its second (the third layer's index and count
    operations are the second's under other names). -/
theorem v81_eq : val_main_v81 (F := Ideal) x0 x1 x2 x3 x4 x5 x6 x7 x8 x9 x10 = refLayer256 x1 (val_main_v55 (F := Ideal) x0 x1 x2 x3 x4 x5 x6 x7) x8 x10 x9 := rfl

/-- The tiled program's neighbour mean of `h` is the plain program's. -/
theorem mean256 (h : (⟨S50000x256, .f32⟩ : BufTy).Contents (Elt Ideal)) (x1 : (⟨S2x800000, .i32⟩ : BufTy).Contents (Elt Ideal)) : Cert.KernelIdeal.HostVal.meanRows256 (F := Ideal) h x1 = refMean256 x1 h :=
  Cert.MeanLaw.spread_mul_eq_div (s0 := S_) (sN := S50000) (sN1 := S50000x1) (sM := S50000x256) ![] _ _ ![0] _ ![0, 1] _ _ _

/-- A product of a [50000, 256] matrix with a [256, 256] one, read at an entry. -/
theorem dot256_apply (L : (⟨S50000x256, .f32⟩ : BufTy).Contents (Elt Ideal)) (Rm : (⟨S256x256, .f32⟩ : BufTy).Contents (Elt Ideal))
    (i : S50000x256.Idx) :
    Host.dotGeneral (F := Ideal) (φ₁ := .f32) (φ₂ := .f32) dot_S50000x256_S256x256_S50000x256_1_0_0_1_n_n none L Rm i = ∑ k : Fin 256, L (lidx_main_v49 i k) * Rm (ridx_main_v49 i k) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx i ((ValueIdx.contrEquiv1 dot_S50000x256_S256x256_S50000x256_1_0_0_1_n_n 256 rfl rfl).symm k) = lidx_main_v49 i k := funext fun a => Fin.ext (by
    match a with
    | ⟨0, _⟩ => exact lhs_main_v49_0 _ _
    | ⟨1, _⟩ => exact (lhs_main_v49_1 _ _).trans hk)
  have er : dot_S50000x256_S256x256_S50000x256_1_0_0_1_n_n.rhsIdx i ((ValueIdx.contrEquiv1 dot_S50000x256_S256x256_S50000x256_1_0_0_1_n_n 256 rfl rfl).symm k) = ridx_main_v49 i k := funext fun a => Fin.ext (by
    match a with
    | ⟨0, _⟩ => exact (rhs_main_v49_0 _ _).trans hk
    | ⟨1, _⟩ => exact rhs_main_v49_1 _ _)
  rw [el, er]

/-- The two ways of combining a mean `M` with the incoming features `h` agree, whatever `M` is: the sums are
    the same sums, and the bias may be added before or after the second product. -/
theorem combine_eq (M : (⟨S50000x256, .f32⟩ : BufTy).Contents (Elt Ideal)) (h : (⟨S50000x256, .f32⟩ : BufTy).Contents (Elt Ideal)) (wl wr : (⟨S256x256, .f32⟩ : BufTy).Contents (Elt Ideal)) (b : (⟨S256, .f32⟩ : BufTy).Contents (Elt Ideal)) :
    Cert.SageNet.fusedK M h wl (Cert.KernelIdeal.HostVal.biasRow256 (F := Ideal) b) wr = refCombine M h wl wr b := by
  funext i
  obtain ⟨p, q, rfl⟩ : ∃ (p : Fin 50000) (q : Fin 256), i = ix2 p q := ⟨i 0, i 1, eq_ix2 i⟩
  rw [Cert.SageNet.fusedK_apply, biasRow256_apply, refCombine_apply, dot256_apply, dot256_apply, val_main_v51_apply,
    val_main_v50_apply, val_main_call1_v0_apply, val_main_call1_cst_apply]
  have el : ∀ k : Fin 256, lidx_main_v49 (ix2 p q) k = ix2 p k := fun k => funext fun a => Fin.ext (by
    match a with
    | ⟨0, _⟩ => rfl
    | ⟨1, _⟩ => rfl)
  have er : ∀ k : Fin 256, ridx_main_v49 (ix2 p q) k = ix2 k q := fun k => funext fun a => Fin.ext (by
    match a with
    | ⟨0, _⟩ => rfl
    | ⟨1, _⟩ => rfl)
  have eb : idx_main_v50 (idx_main_v51 (ix2 p q)) = ix1 q := funext fun a => Fin.ext (by
    match a with
    | ⟨0, _⟩ => rfl)
  simp only [el, er, eb, Ideal.maximumf_def, Ideal.addf_def, Ideal.ofBits_def, Ideal.ofBits_zero_f32]
  rw [add_right_comm]

/-- A hidden layer: the fused layer of the tiled program's mean of `h` is the plain program's layer of `h`. -/
theorem layer256 (x1 : (⟨S2x800000, .i32⟩ : BufTy).Contents (Elt Ideal)) (h : (⟨S50000x256, .f32⟩ : BufTy).Contents (Elt Ideal)) (wl wr : (⟨S256x256, .f32⟩ : BufTy).Contents (Elt Ideal)) (b : (⟨S256, .f32⟩ : BufTy).Contents (Elt Ideal)) :
    Cert.SageNet.fusedK (Cert.KernelIdeal.HostVal.meanRows256 (F := Ideal) h x1) h wl
        (Cert.KernelIdeal.HostVal.biasRow256 (F := Ideal) b) wr
      = refLayer256 x1 h wl wr b := by
  rw [mean256]
  exact combine_eq (refMean256 x1 h) h wl wr b

/-! ## The last linear layer -/

/-- The plain program's last layer as a function of the incoming features:  h·Wo + b. -/
def refFinal (x11 : (⟨S256x15, .f32⟩ : BufTy).Contents (Elt Ideal)) (x12 : (⟨S15, .f32⟩ : BufTy).Contents (Elt Ideal)) (h : (⟨S50000x256, .f32⟩ : BufTy).Contents (Elt Ideal)) : (⟨S50000x15, .f32⟩ : BufTy).Contents (Elt Ideal) :=
  addf (F := Ideal) (Host.dotGeneral (F := Ideal) (φ₁ := .f32) (φ₂ := .f32) dot_S50000x256_S256x15_S50000x15_1_0_0_1_n_n none h x11) (val_main_v84 (F := Ideal) x12)

/-- That layer read at an entry. -/
theorem refFinal_apply (x11 : (⟨S256x15, .f32⟩ : BufTy).Contents (Elt Ideal)) (x12 : (⟨S15, .f32⟩ : BufTy).Contents (Elt Ideal)) (h : (⟨S50000x256, .f32⟩ : BufTy).Contents (Elt Ideal)) (i : S50000x15.Idx) :
    refFinal x11 x12 h i
      = FloatOps.addf (Host.dotGeneral (F := Ideal) (φ₁ := .f32) (φ₂ := .f32) dot_S50000x256_S256x15_S50000x15_1_0_0_1_n_n none h x11 i) (val_main_v84 (F := Ideal) x12 i) := rfl

/-- The plain program's result is that layer of its third hidden state. -/
theorem v85_eq : val_main_v85 (F := Ideal) x0 x1 x2 x3 x4 x5 x6 x7 x8 x9 x10 x11 x12 = refFinal x11 x12 (val_main_v81 (F := Ideal) x0 x1 x2 x3 x4 x5 x6 x7 x8 x9 x10) := rfl

/-- A product of a [50000, 256] matrix with a [256, 15] one, read at an entry. -/
theorem dot15_apply (L : (⟨S50000x256, .f32⟩ : BufTy).Contents (Elt Ideal)) (Rm : (⟨S256x15, .f32⟩ : BufTy).Contents (Elt Ideal))
    (i : S50000x15.Idx) :
    Host.dotGeneral (F := Ideal) (φ₁ := .f32) (φ₂ := .f32) dot_S50000x256_S256x15_S50000x15_1_0_0_1_n_n none L Rm i = ∑ k : Fin 256, L (lidx_main_v82 i k) * Rm (ridx_main_v82 i k) := by
  simp only [Host.dotGeneral]
  rw [Ideal.dotGeneral_apply, ← Equiv.sum_comp (ValueIdx.contrEquiv1 dot_S50000x256_S256x15_S50000x15_1_0_0_1_n_n 256 rfl rfl).symm]
  refine Finset.sum_congr rfl fun k _ => ?_
  have hk := ValueIdx.contrEquiv1_symm_val dot_S50000x256_S256x15_S50000x15_1_0_0_1_n_n 256 rfl rfl k
  have el : dot_S50000x256_S256x15_S50000x15_1_0_0_1_n_n.lhsIdx i ((ValueIdx.contrEquiv1 dot_S50000x256_S256x15_S50000x15_1_0_0_1_n_n 256 rfl rfl).symm k) = lidx_main_v82 i k := funext fun a => Fin.ext (by
    match a with
    | ⟨0, _⟩ => exact lhs_main_v82_0 _ _
    | ⟨1, _⟩ => exact (lhs_main_v82_1 _ _).trans hk)
  have er : dot_S50000x256_S256x15_S50000x15_1_0_0_1_n_n.rhsIdx i ((ValueIdx.contrEquiv1 dot_S50000x256_S256x15_S50000x15_1_0_0_1_n_n 256 rfl rfl).symm k) = ridx_main_v82 i k := funext fun a => Fin.ext (by
    match a with
    | ⟨0, _⟩ => exact (rhs_main_v82_0 _ _).trans hk
    | ⟨1, _⟩ => exact rhs_main_v82_1 _ _)
  rw [el, er]

/-- The 15-entry bias laid out as one row, read at a column, is the bias vector's entry. -/
theorem biasRow15_apply (b15 : (⟨S15, .f32⟩ : BufTy).Contents (Elt Ideal)) (q : Fin 15) :
    Cert.KernelIdeal.HostVal.biasRow15 (F := Ideal) b15 (ix2 (0 : Fin 1) q) = b15 (ix1 q) := by
  unfold Cert.KernelIdeal.HostVal.biasRow15
  refine shapeCast_apply b15 _ _ (ix1 q) ?_
  rewrite [Shape.rowMajor_val_one, Shape.rowMajor_val_two]
  show q.val = 0 * 15 + q.val
  omega

/-- The last layer: the tiled program's  h·Wo + b  is the plain program's. -/
theorem layerFinal (x11 : (⟨S256x15, .f32⟩ : BufTy).Contents (Elt Ideal)) (x12 : (⟨S15, .f32⟩ : BufTy).Contents (Elt Ideal)) (h : (⟨S50000x256, .f32⟩ : BufTy).Contents (Elt Ideal)) :
    Cert.SageNet.finalK h x11 (Cert.KernelIdeal.HostVal.biasRow15 (F := Ideal) x12) = refFinal x11 x12 h := by
  funext i
  obtain ⟨p, q, rfl⟩ : ∃ (p : Fin 50000) (q : Fin 15), i = ix2 p q := ⟨i 0, i 1, eq_ix2 i⟩
  rw [Cert.SageNet.finalK_apply, biasRow15_apply, refFinal_apply, dot15_apply, val_main_v84_apply, val_main_v83_apply]
  have el : ∀ k : Fin 256, lidx_main_v82 (ix2 p q) k = ix2 p k := fun k => funext fun a => Fin.ext (by
    match a with
    | ⟨0, _⟩ => rfl
    | ⟨1, _⟩ => rfl)
  have er : ∀ k : Fin 256, ridx_main_v82 (ix2 p q) k = ix2 k q := fun k => funext fun a => Fin.ext (by
    match a with
    | ⟨0, _⟩ => rfl
    | ⟨1, _⟩ => rfl)
  have eb : idx_main_v83 (idx_main_v84 (ix2 p q)) = ix1 q := funext fun a => Fin.ext (by
    match a with
    | ⟨0, _⟩ => rfl)
  simp only [el, er, eb, Ideal.addf_def]

end Cert.Bridge

end
-- ==== Proof.KernelValue.lean ====
/- The tiled program's result, region after region.

   Each region's result array is the fused layer (the last: the linear layer) of the arrays the region finds at
   entry, and what it finds there is what the host operations before it leave: the neighbour mean of the previous
   hidden state, that state itself, and the layer's weights and bias, the weights being argument arrays nothing
   has written.  Chaining the four regions gives the result array as a nest of four layers of the thirteen
   argument arrays; layer by layer that nest is the plain program's term of the same arrays, because each layer of
   the tiled program is the plain program's layer applied to an equal incoming state. -/
import proofs.«149804_j68436008895103_1_alg».proof.Proof.Gen.KernelIdeal.Frame
import proofs.«149804_j68436008895103_1_alg».proof.Proof.Spec
import proofs.«149804_j68436008895103_1_alg».proof.Proof.KHostDefs
import proofs.«149804_j68436008895103_1_alg».proof.Proof.Blk0
import proofs.«149804_j68436008895103_1_alg».proof.Proof.Blk1
import proofs.«149804_j68436008895103_1_alg».proof.Proof.Blk2
import proofs.«149804_j68436008895103_1_alg».proof.Proof.Blk3
import proofs.«149804_j68436008895103_1_alg».proof.Proof.HostRead1
import proofs.«149804_j68436008895103_1_alg».proof.Proof.HostRead2
import proofs.«149804_j68436008895103_1_alg».proof.Proof.Bridge2

set_option maxRecDepth 16384

noncomputable section

namespace Cert.KernelIdeal.KVal

open Cert.KernelIdeal Cert.KernelIdeal.Gen Cert.KernelIdeal.HostVal
open Idealize.ShloMosaic Idealize.ShloMosaic.TcCoe Idealize.SL.Sem

variable (m : (ℓ : Loc nD τ sig) → Buf (Elt Ideal) ℓ) (ρ : Dev nD → PrngReg) (c : Dev nD)

/-- The first region's result array: the fused layer of the input features and their neighbour mean. -/
theorem hidden1 : W2 m ρ c (Proc.devRef .tc main_v26)
    = Cert.SageNet.fusedK (meanRows128 (F := Ideal) (m ((c : Thread nD τ).loc main_arg0)) (m ((c : Thread nD τ).loc main_arg1))) (m ((c : Thread nD τ).loc main_arg0)) (m ((c : Thread nD τ).loc main_arg2))
        (biasRow256 (F := Ideal) (m ((c : Thread nD τ).loc main_arg3))) (m ((c : Thread nD τ).loc main_arg4)) := by
  have e := Cert.KernelIdeal.Blk0.final (V1 m ρ) c
  have a0 : V1 m ρ c main_v24 = _ := Cert.KernelIdeal.HostRead1.W1_v24 m ρ c
  have a1 : V1 m ρ c main_arg0 = _ := Cert.KernelIdeal.HostRead1.W1_arg0 m ρ c
  have a2 : V1 m ρ c main_arg2 = _ := Cert.KernelIdeal.HostRead1.W1_arg2 m ρ c
  have a3 : V1 m ρ c main_v25 = _ := Cert.KernelIdeal.HostRead1.W1_v25 m ρ c
  have a4 : V1 m ρ c main_arg4 = _ := Cert.KernelIdeal.HostRead1.W1_arg4 m ρ c
  rw [a0, a1, a2, a3, a4] at e
  exact (W2_arr m ρ c 5).trans e

/-- The second region's result array: the fused layer of the first hidden state and its neighbour mean. -/
theorem hidden2 : W4 m ρ c (Proc.devRef .tc main_v40)
    = Cert.SageNet.fusedK (meanRows256 (F := Ideal) (W2 m ρ c (Proc.devRef .tc main_v26)) (m ((c : Thread nD τ).loc main_arg1)))
        (W2 m ρ c (Proc.devRef .tc main_v26)) (m ((c : Thread nD τ).loc main_arg5)) (biasRow256 (F := Ideal) (m ((c : Thread nD τ).loc main_arg6))) (m ((c : Thread nD τ).loc main_arg7)) := by
  have e := Cert.KernelIdeal.Blk1.final (V3 m ρ) c
  have a0 : V3 m ρ c main_v38 = _ := Cert.KernelIdeal.HostRead1.W3_v38 m ρ c
  have a1 : V3 m ρ c main_v26 = _ := Cert.KernelIdeal.HostRead1.W3_v26 m ρ c
  have a2 : V3 m ρ c main_arg5 = _ := Cert.KernelIdeal.HostRead1.W3_arg5 m ρ c
  have a3 : V3 m ρ c main_v39 = _ := Cert.KernelIdeal.HostRead1.W3_v39 m ρ c
  have a4 : V3 m ρ c main_arg7 = _ := Cert.KernelIdeal.HostRead1.W3_arg7 m ρ c
  rw [a0, a1, a2, a3, a4] at e
  exact (W4_arr m ρ c 5).trans e

/-- The third region's result array: the fused layer of the second hidden state and its neighbour mean. -/
theorem hidden3 : W6 m ρ c (Proc.devRef .tc main_v54)
    = Cert.SageNet.fusedK (meanRows256 (F := Ideal) (W4 m ρ c (Proc.devRef .tc main_v40)) (m ((c : Thread nD τ).loc main_arg1)))
        (W4 m ρ c (Proc.devRef .tc main_v40)) (m ((c : Thread nD τ).loc main_arg8)) (biasRow256 (F := Ideal) (m ((c : Thread nD τ).loc main_arg9))) (m ((c : Thread nD τ).loc main_arg10)) := by
  have e := Cert.KernelIdeal.Blk2.final (V5 m ρ) c
  have a0 : V5 m ρ c main_v52 = _ := Cert.KernelIdeal.HostRead2.W5_v52 m ρ c
  have a1 : V5 m ρ c main_v40 = _ := Cert.KernelIdeal.HostRead2.W5_v40 m ρ c
  have a2 : V5 m ρ c main_arg8 = _ := Cert.KernelIdeal.HostRead2.W5_arg8 m ρ c
  have a3 : V5 m ρ c main_v53 = _ := Cert.KernelIdeal.HostRead2.W5_v53 m ρ c
  have a4 : V5 m ρ c main_arg10 = _ := Cert.KernelIdeal.HostRead2.W5_arg10 m ρ c
  rw [a0, a1, a2, a3, a4] at e
  exact (W6_arr m ρ c 5).trans e

/-- The fourth region's result array: the last linear layer of the third hidden state. -/
theorem output : W8 m ρ c (Proc.devRef .tc main_v56)
    = Cert.SageNet.finalK (W6 m ρ c (Proc.devRef .tc main_v54)) (m ((c : Thread nD τ).loc main_arg11)) (biasRow15 (F := Ideal) (m ((c : Thread nD τ).loc main_arg12))) := by
  have e := Cert.KernelIdeal.Blk3.final (V7 m ρ) c
  have a0 : V7 m ρ c main_v54 = _ := Cert.KernelIdeal.HostRead2.W7_v54 m ρ c
  have a1 : V7 m ρ c main_arg11 = _ := Cert.KernelIdeal.HostRead2.W7_arg11 m ρ c
  have a2 : V7 m ρ c main_v55 = _ := Cert.KernelIdeal.HostRead2.W7_v55 m ρ c
  rw [a0, a1, a2] at e
  exact (W8_arr m ρ c 3).trans e

/-- The tiled program's first hidden state is the plain program's. -/
theorem hidden1_ref : W2 m ρ c (Proc.devRef .tc main_v26)
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (hidden1 m ρ c).trans (Cert.Bridge.layer1 (m ((c : Thread nD τ).loc main_arg0)) (m ((c : Thread nD τ).loc main_arg1)) (m ((c : Thread nD τ).loc main_arg2)) (m ((c : Thread nD τ).loc main_arg4)) (m ((c : Thread nD τ).loc main_arg3)))

/-- The tiled program's second hidden state is the plain program's. -/
theorem hidden2_ref : W4 m ρ c (Proc.devRef .tc main_v40)
    = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [hidden2, hidden1_ref]
  exact (Cert.Bridge.layer256 (m ((c : Thread nD τ).loc main_arg1)) _ (m ((c : Thread nD τ).loc main_arg5)) (m ((c : Thread nD τ).loc main_arg7)) (m ((c : Thread nD τ).loc main_arg6))).trans (Cert.Bridge.v55_eq (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg7)) (m ((c : Thread nD τ).loc main_arg6))).symm

/-- The tiled program's third hidden state is the plain program's. -/
theorem hidden3_ref : W6 m ρ c (Proc.devRef .tc main_v54)
    = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [hidden3, hidden2_ref]
  exact (Cert.Bridge.layer256 (m ((c : Thread nD τ).loc main_arg1)) _ (m ((c : Thread nD τ).loc main_arg8)) (m ((c : Thread nD τ).loc main_arg10)) (m ((c : Thread nD τ).loc main_arg9))).trans (Cert.Bridge.v81_eq (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg7)) (m ((c : Thread nD τ).loc main_arg8)) (m ((c : Thread nD τ).loc main_arg10)) (m ((c : Thread nD τ).loc main_arg6)) (m ((c : Thread nD τ).loc main_arg9))).symm

/-- The tiled program's result array is the plain program's result term of the same thirteen argument arrays. -/
theorem value : W8 m ρ c (Proc.devRef .tc main_v56)
    = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [output, hidden3_ref]
  exact (Cert.Bridge.layerFinal (m ((c : Thread nD τ).loc main_arg11)) (m ((c : Thread nD τ).loc main_arg12)) _).trans (Cert.Bridge.v85_eq (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg7)) (m ((c : Thread nD τ).loc main_arg8)) (m ((c : Thread nD τ).loc main_arg10)) (m ((c : Thread nD τ).loc main_arg6)) (m ((c : Thread nD τ).loc main_arg9)) (m ((c : Thread nD τ).loc main_arg11)) (m ((c : Thread nD τ).loc main_arg12))).symm

end Cert.KernelIdeal.KVal

end
-- ==== Proof.lean ====
/- A three-layer graph network — each layer  max((mean·Wl + b) + h·Wr, 0)  of the node features h and the mean of
   every node's in-neighbours' rows, then a linear layer  h·Wo + b — as four tiled regions between host operations,
   against the same network written with whole-array operations; equal on the extended reals.

   The frames: each program terminates from every memory with zero counters and leaves its thirteen argument arrays
   as launched; for the two tiled programs this is the regions' launch theorem over the program's segments, for the
   plain one its run as a line of host operations.  The tiled program's idealization rewrote nothing, so there is
   nothing to preserve.  The value: the tiled program's result buffer ends at the fold of its segments over the
   launch memory (KernelRun), that fold is, region after region, the plain program's term of the argument arrays
   (KernelValue: the regions block by block, the host stretches read back, and layer by layer the one law
   a·(1/c) = a/c for c = max(count, 1) together with the commutativity of the sum), and the plain program's run ends
   at that term of arrays that agree with the tiled program's.  Finiteness of the inputs is never used: the law
   holds at the infinities too, the divisor being at least one. -/
import proofs.«149804_j68436008895103_1_alg».proof.Defs
import proofs.«149804_j68436008895103_1_alg».proof.Proof.Gen.Kernel
import proofs.«149804_j68436008895103_1_alg».proof.Proof.Gen.Kernel.Frame
import proofs.«149804_j68436008895103_1_alg».proof.Proof.Gen.KernelIdeal
import proofs.«149804_j68436008895103_1_alg».proof.Proof.Gen.KernelIdeal.Frame
import proofs.«149804_j68436008895103_1_alg».proof.Proof.Gen.ReferenceIdeal
import proofs.«149804_j68436008895103_1_alg».proof.Proof.Gen.Pre_finite_inputs
import proofs.«149804_j68436008895103_1_alg».proof.Proof.RefModules
import proofs.«149804_j68436008895103_1_alg».proof.Proof.KernelRun
import proofs.«149804_j68436008895103_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The tiled program as printed terminates and keeps its arguments. -/
theorem frame_kernel : Cert.frame_Kernel := fun m ρ _ => Cert.Kernel.Gen.frame m ρ

/-- The tiled program read on the extended reals terminates and keeps its arguments. -/
theorem frame_kernelIdeal : Cert.frame_KernelIdeal := fun m ρ _ => Cert.KernelIdeal.Gen.frame m ρ

/-- The plain program terminates and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the thirteen arguments the two programs end with the same result array: the
    plain program's term of the tiled program's argument arrays. -/
theorem algebraic : Cert.algebraic_KernelIdeal_ReferenceIdeal := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KVal.value m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v85_eq, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
